-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v85_1)) (v1 : (c : Dev Cert.KernelIdeal.nD) → Buf (Elt Ideal) ((c.tc : Thread Cert.KernelIdeal.nD Cert.KernelIdeal.τ).loc Cert.KernelIdeal.main_v85_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85_1) = v0 c
          ∧ r.2.mem ((c.tc : Thread Cert.KernelIdeal.nD Cert.KernelIdeal.τ).loc Cert.KernelIdeal.main_v85_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_v89) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S100000x1 : Shape := ⟨2, ![100000, 1]⟩
abbrev S32x128 : Shape := ⟨2, ![32, 128]⟩
abbrev S32 : Shape := ⟨1, ![32]⟩
abbrev S8x32 : Shape := ⟨2, ![8, 32]⟩
abbrev S8 : Shape := ⟨1, ![8]⟩
abbrev S1x9 : Shape := ⟨2, ![1, 9]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000x1 : S_.BroadcastsInDim S100000x1 (![] : Fin 0 → Fin S100000x1.rank)
  reducesTo_S100000x1_S_d0_1 : S100000x1.ReducesTo [0, 1] S_
  bcast_S_S32x128 : S_.BroadcastsInDim S32x128 (![] : Fin 0 → Fin S32x128.rank)
  reducesTo_S32x128_S_d0_1 : S32x128.ReducesTo [0, 1] S_
  bcast_S_S32 : S_.BroadcastsInDim S32 (![] : Fin 0 → Fin S32.rank)
  reducesTo_S32_S_d0 : S32.ReducesTo [0] S_
  bcast_S_S8x32 : S_.BroadcastsInDim S8x32 (![] : Fin 0 → Fin S8x32.rank)
  reducesTo_S8x32_S_d0_1 : S8x32.ReducesTo [0, 1] S_
  bcast_S_S8 : S_.BroadcastsInDim S8 (![] : Fin 0 → Fin S8.rank)
  reducesTo_S8_S_d0 : S8.ReducesTo [0] S_
  bcast_S_S1x9 : S_.BroadcastsInDim S1x9 (![] : Fin 0 → Fin S1x9.rank)
  reducesTo_S1x9_S_d0_1 : S1x9.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S1 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg5 : FVec F S8x32 .f32) (main_arg6 : FVec F S8 .f32) (main_arg7 : FVec F S1x9 .f32) (main_arg8 : FVec F S1 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S8x32 .f32 := Host.absf main_arg5
  let main_cst_6 : FVec F S_ .f32 := constant S_ .f32 0x7F800000#32
  let main_v20 : FVec F S8x32 .f32 := broadcastInDim S8x32 ![] bcast_S_S8x32 main_cst_6
  let main_v21 : IVec S8x32 1 := cmpf .olt main_v19 main_v20
  let main_c_7 : IVec S_ 1 := constantI S_ 1 1#1
  let main_v22 : IVec S_ 1 := (fun x v => Host.reduce IntOp.andi x v reducesTo_S8x32_S_d0_1 h_S_) main_v21 main_c_7
  let main_v23 : IVec S_ 1 := andi main_v18 main_v22
  let main_v24 : FVec F S8 .f32 := Host.absf main_arg6
  let main_cst_8 : FVec F S_ .f32 := constant S_ .f32 0x7F800000#32
  let main_v25 : FVec F S8 .f32 := broadcastInDim S8 ![] bcast_S_S8 main_cst_8
  let main_v26 : IVec S8 1 := cmpf .olt main_v24 main_v25
  let main_c_9 : IVec S_ 1 := constantI S_ 1 1#1
  let main_v27 : IVec S_ 1 := (fun x v => Host.reduce IntOp.andi x v reducesTo_S8_S_d0 h_S_) main_v26 main_c_9
  let main_v28 : IVec S_ 1 := andi main_v23 main_v27
  let main_v29 : FVec F S1x9 .f32 := Host.absf main_arg7
  let main_cst_10 : FVec F S_ .f32 := constant S_ .f32 0x7F800000#32
  let main_v30 : FVec F S1x9 .f32 := broadcastInDim S1x9 ![] bcast_S_S1x9 main_cst_10
  let main_v31 : IVec S1x9 1 := cmpf .olt main_v29 main_v30
  let main_c_11 : IVec S_ 1 := constantI S_ 1 1#1
  let main_v32 : IVec S_ 1 := (fun x v => Host.reduce IntOp.andi x v reducesTo_S1x9_S_d0_1 h_S_) main_v31 main_c_11
  let main_v33 : IVec S_ 1 := andi main_v28 main_v32
  fn_part2 (F := F) main_arg8 main_v33

def fn {F : FTy → Type} [FloatOps F] (main_arg0 : FVec F S100000x128 .f32) (main_arg1 : IVec S2x3200000 32) (main_arg2 : FVec F S100000x1 .f32) (main_arg3 : FVec F S32x128 .f32) (main_arg4 : FVec F S32 .f32) (main_arg5 : FVec F S8x32 .f32) (main_arg6 : FVec F S8 .f32) (main_arg7 : FVec F S1x9 .f32) (main_arg8 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x1 .f32 := Host.absf main_arg2
  let main_cst_0 : FVec F S_ .f32 := constant S_ .f32 0x7F800000#32
  let main_v5 : FVec F S100000x1 .f32 := broadcastInDim S100000x1 ![] bcast_S_S100000x1 main_cst_0
  let main_v6 : IVec S100000x1 1 := cmpf .olt main_v4 main_v5
  let main_c_1 : IVec S_ 1 := constantI S_ 1 1#1
  let main_v7 : IVec S_ 1 := (fun x v => Host.reduce IntOp.andi x v reducesTo_S100000x1_S_d0_1 h_S_) main_v6 main_c_1
  let main_v8 : IVec S_ 1 := andi main_v3 main_v7
  let main_v9 : FVec F S32x128 .f32 := Host.absf main_arg3
  let main_cst_2 : FVec F S_ .f32 := constant S_ .f32 0x7F800000#32
  let main_v10 : FVec F S32x128 .f32 := broadcastInDim S32x128 ![] bcast_S_S32x128 main_cst_2
  let main_v11 : IVec S32x128 1 := cmpf .olt main_v9 main_v10
  let main_c_3 : IVec S_ 1 := constantI S_ 1 1#1
  let main_v12 : IVec S_ 1 := (fun x v => Host.reduce IntOp.andi x v reducesTo_S32x128_S_d0_1 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg5 main_arg6 main_arg7 main_arg8 main_v13 main_v16
-- ==== Kernel.lean ====
abbrev S100000x128 : Shape := ⟨2, ![100000, 128]⟩
abbrev S2x3200000 : Shape := ⟨2, ![2, 3200000]⟩
abbrev S100000x1 : Shape := ⟨2, ![100000, 1]⟩
abbrev S32x128 : Shape := ⟨2, ![32, 128]⟩
abbrev S32 : Shape := ⟨1, ![32]⟩
abbrev S8x32 : Shape := ⟨2, ![8, 32]⟩
abbrev S8 : Shape := ⟨1, ![8]⟩
abbrev S1x9 : Shape := ⟨2, ![1, 9]⟩
abbrev S1 : Shape := ⟨1, ![1]⟩
abbrev S100000 : Shape := ⟨1, ![100000]⟩
abbrev S1x100000 : Shape := ⟨2, ![1, 100000]⟩
abbrev S1x1x1x100000 : Shape := ⟨4, ![1, 1, 1, 100000]⟩
abbrev S2x1x1x100000 : Shape := ⟨4, ![2, 1, 1, 100000]⟩
abbrev S2x100000 : Shape := ⟨2, ![2, 100000]⟩
abbrev S2x3300000 : Shape := ⟨2, ![2, 3300000]⟩
abbrev S1x3300000 : Shape := ⟨2, ![1, 3300000]⟩
abbrev S3300000 : Shape := ⟨1, ![3300000]⟩
abbrev S128x32 : Shape := ⟨2, ![128, 32]⟩
abbrev S1x32 : Shape := ⟨2, ![1, 32]⟩
abbrev S100000x32 : Shape := ⟨2, ![100000, 32]⟩
abbrev S10000x128 : Shape := ⟨2, ![10000, 128]⟩
abbrev S10000x32 : Shape := ⟨2, ![10000, 32]⟩
abbrev S_ : Shape := ⟨0, ![]⟩
abbrev S3300000x1 : Shape := ⟨2, ![3300000, 1]⟩
abbrev S3300000x32 : Shape := ⟨2, ![3300000, 32]⟩
abbrev S32x8 : Shape := ⟨2, ![32, 8]⟩
abbrev S1x8 : Shape := ⟨2, ![1, 8]⟩
abbrev S100000x8 : Shape := ⟨2, ![100000, 8]⟩
abbrev S10000x8 : Shape := ⟨2, ![10000, 8]⟩
abbrev S3300000x8 : Shape := ⟨2, ![3300000, 8]⟩
abbrev S1x1 : Shape := ⟨2, ![1, 1]⟩
abbrev S10000x1 : Shape := ⟨2, ![10000, 1]⟩
abbrev S10000 : Shape := ⟨1, ![10000]⟩

abbrev nBuf : Space → Nat
  | .hbm => 116
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S100000x1, .f32⟩
  | .hbm, ⟨3, _⟩ => ⟨S32x128, .f32⟩
  | .hbm, ⟨4, _⟩ => ⟨S32, .f32⟩
  | .hbm, ⟨5, _⟩ => ⟨S8x32, .f32⟩
  | .hbm, ⟨6, _⟩ => ⟨S8, .f32⟩
  | .hbm, ⟨7, _⟩ => ⟨S1x9, .f32⟩
  | .hbm, ⟨8, _⟩ => ⟨S1, .f32⟩
  | .hbm, ⟨9, _⟩ => ⟨S100000, .i32⟩
  | .hbm, ⟨10, _⟩ => ⟨S1x100000, .i32⟩
  | .hbm, ⟨11, _⟩ => ⟨S1x1x1x100000, .i32⟩
  | .hbm, ⟨12, _⟩ => ⟨S2x1x1x100000, .i32⟩
  | .hbm, ⟨13, _⟩ => ⟨S2x100000, .i32⟩
  | .hbm, ⟨14, _⟩ => ⟨S2x3300000, .i32⟩
  | .hbm, ⟨15, _⟩ => ⟨S1x3300000, .i32⟩
  | .hbm, ⟨16, _⟩ => ⟨S3300000, .i32⟩
  | .hbm, ⟨17, _⟩ => ⟨S1x3300000, .i32⟩
  | .hbm, ⟨18, _⟩ => ⟨S3300000, .i32⟩
  | .hbm, ⟨19, _⟩ => ⟨S128x32, .f32⟩
  | .hbm, ⟨20, _⟩ => ⟨S1x32, .f32⟩
  | .hbm, ⟨21, _⟩ => ⟨S100000x32, .f32⟩
  | .hbm, ⟨22, _⟩ => ⟨S_, .f32⟩
  | .hbm, ⟨23, _⟩ => ⟨S3300000, .f32⟩
  | .hbm, ⟨24, _⟩ => ⟨S_, .f32⟩
  | .hbm, ⟨25, _⟩ => ⟨S100000, .f32⟩
  | .hbm, ⟨26, _⟩ => ⟨S3300000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S3300000, .i32⟩
  | .hbm, ⟨33, _⟩ => ⟨S3300000, .i1⟩
  | .hbm, ⟨34, _⟩ => ⟨S_, .i32⟩
  | .hbm, ⟨35, _⟩ => ⟨S3300000, .i32⟩
  | .hbm, ⟨36, _⟩ => ⟨S3300000, .i32⟩
  | .hbm, ⟨37, _⟩ => ⟨S3300000, .i32⟩
  | .hbm, ⟨38, _⟩ => ⟨S3300000x1, .i32⟩
  | .hbm, ⟨39, _⟩ => ⟨S3300000, .f32⟩
  | .hbm, ⟨40, _⟩ => ⟨S_, .i32⟩
  | .hbm, ⟨41, _⟩ => ⟨S3300000, .i32⟩
  | .hbm, ⟨42, _⟩ => ⟨S3300000, .i1⟩
  | .hbm, ⟨43, _⟩ => ⟨S_, .i32⟩
  | .hbm, ⟨44, _⟩ => ⟨S3300000, .i32⟩
  | .hbm, ⟨45, _⟩ => ⟨S3300000, .i32⟩
  | .hbm, ⟨46, _⟩ => ⟨S3300000, .i32⟩
  | .hbm, ⟨47, _⟩ => ⟨S3300000x1, .i32⟩
  | .hbm, ⟨48, _⟩ => ⟨S3300000, .f32⟩
  | .hbm, ⟨49, _⟩ => ⟨S3300000, .f32⟩
  | .hbm, ⟨50, _⟩ => ⟨S3300000x1, .f32⟩
  | .hbm, ⟨51, _⟩ => ⟨S_, .i32⟩
  | .hbm, ⟨52, _⟩ => ⟨S3300000, .i32⟩
  | .hbm, ⟨53, _⟩ => ⟨S3300000, .i1⟩
  | .hbm, ⟨54, _⟩ => ⟨S_, .i32⟩
  | .hbm, ⟨55, _⟩ => ⟨S3300000, .i32⟩
  | .hbm, ⟨56, _⟩ => ⟨S3300000, .i32⟩
  | .hbm, ⟨57, _⟩ => ⟨S3300000, .i32⟩
  | .hbm, ⟨58, _⟩ => ⟨S3300000x1, .i32⟩
  | .hbm, ⟨59, _⟩ => ⟨S3300000x32, .f32⟩
  | .hbm, ⟨60, _⟩ => ⟨S3300000x32, .f32⟩
  | .hbm, ⟨61, _⟩ => ⟨S3300000x32, .f32⟩
  | .hbm, ⟨62, _⟩ => ⟨S_, .f32⟩
  | .hbm, ⟨63, _⟩ => ⟨S100000x32, .f32⟩
  | .hbm, ⟨64, _⟩ => ⟨S3300000x1, .i32⟩
  | .hbm, ⟨65, _⟩ => ⟨S100000x32, .f32⟩
  | .hbm, ⟨66, _⟩ => ⟨S32x8, .f32⟩
  | .hbm, ⟨67, _⟩ => ⟨S1x8, .f32⟩
  | .hbm, ⟨68, _⟩ => ⟨S100000x8, .f32⟩
  | .hbm, ⟨69, _⟩ => ⟨S_, .f32⟩
  | .hbm, ⟨70, _⟩ => ⟨S3300000, .f32⟩
  | .hbm, ⟨71, _⟩ => ⟨S_, .f32⟩
  | .hbm, ⟨72, _⟩ => ⟨S100000, .f32⟩
  | .hbm, ⟨73, _⟩ => ⟨S3300000x1, .i32⟩
  | .hbm, ⟨74, _⟩ => ⟨S100000, .f32⟩
  | .hbm, ⟨75, _⟩ => ⟨S_, .f32⟩
  | .hbm, ⟨76, _⟩ => ⟨S100000, .f32⟩
  | .hbm, ⟨77, _⟩ => ⟨S100000, .f32⟩
  | .hbm, ⟨78, _⟩ => ⟨S_, .i32⟩
  | .hbm, ⟨79, _⟩ => ⟨S3300000, .i32⟩
  | .hbm, ⟨80, _⟩ => ⟨S3300000, .i1⟩
  | .hbm, ⟨81, _⟩ => ⟨S_, .i32⟩
  | .hbm, ⟨82, _⟩ => ⟨S3300000, .i32⟩
  | .hbm, ⟨83, _⟩ => ⟨S3300000, .i32⟩
  | .hbm, ⟨84, _⟩ => ⟨S3300000, .i32⟩
  | .hbm, ⟨85, _⟩ => ⟨S3300000x1, .i32⟩
  | .hbm, ⟨86, _⟩ => ⟨S3300000, .f32⟩
  | .hbm, ⟨87, _⟩ => ⟨S_, .i32⟩
  | .hbm, ⟨88, _⟩ => ⟨S3300000, .i32⟩
  | .hbm, ⟨89, _⟩ => ⟨S3300000, .i1⟩
  | .hbm, ⟨90, _⟩ => ⟨S_, .i32⟩
  | .hbm, ⟨91, _⟩ => ⟨S3300000, .i32⟩
  | .hbm, ⟨92, _⟩ => ⟨S3300000, .i32⟩
  | .hbm, ⟨93, _⟩ => ⟨S3300000, .i32⟩
  | .hbm, ⟨94, _⟩ => ⟨S3300000x1, .i32⟩
  | .hbm, ⟨95, _⟩ => ⟨S3300000, .f32⟩
  | .hbm, ⟨96, _⟩ => ⟨S3300000, .f32⟩
  | .hbm, ⟨97, _⟩ => ⟨S3300000x1, .f32⟩
  | .hbm, ⟨98, _⟩ => ⟨S_, .i32⟩
  | .hbm, ⟨99, _⟩ => ⟨S3300000, .i32⟩
  | .hbm, ⟨100, _⟩ => ⟨S3300000, .i1⟩
  | .hbm, ⟨101, _⟩ => ⟨S_, .i32⟩
  | .hbm, ⟨102, _⟩ => ⟨S3300000, .i32⟩
  | .hbm, ⟨103, _⟩ => ⟨S3300000, .i32⟩
  | .hbm, ⟨104, _⟩ => ⟨S3300000, .i32⟩
  | .hbm, ⟨105, _⟩ => ⟨S3300000x1, .i32⟩
  | .hbm, ⟨106, _⟩ => ⟨S3300000x8, .f32⟩
  | .hbm, ⟨107, _⟩ => ⟨S3300000x8, .f32⟩
  | .hbm, ⟨108, _⟩ => ⟨S3300000x8, .f32⟩
  | .hbm, ⟨109, _⟩ => ⟨S_, .f32⟩
  | .hbm, ⟨110, _⟩ => ⟨S100000x8, .f32⟩
  | .hbm, ⟨111, _⟩ => ⟨S3300000x1, .i32⟩
  | .hbm, ⟨112, _⟩ => ⟨S100000x8, .f32⟩
  | .hbm, ⟨113, _⟩ => ⟨S1x1, .f32⟩
  | .hbm, ⟨114, _⟩ => ⟨S100000x8, .f32⟩
  | .hbm, ⟨115, _⟩ => ⟨S100000x1, .f32⟩
  | .local _ .vmem, ⟨0, _⟩ => ⟨S10000x128, .f32⟩
  | .local _ .vmem, ⟨1, _⟩ => ⟨S10000x128, .f32⟩
  | .local _ .vmem, ⟨2, _⟩ => ⟨S128x32, .f32⟩
  | .local _ .vmem, ⟨3, _⟩ => ⟨S1x32, .f32⟩
  | .local _ .vmem, ⟨4, _⟩ => ⟨S10000x32, .f32⟩
  | .local _ .vmem, ⟨5, _⟩ => ⟨S10000x32, .f32⟩
  | .local _ .vmem, ⟨6, _⟩ => ⟨S10000x32, .f32⟩
  | .local _ .vmem, ⟨7, _⟩ => ⟨S10000x32, .f32⟩
  | .local _ .vmem, ⟨8, _⟩ => ⟨S32x8, .f32⟩
  | .local _ .vmem, ⟨9, _⟩ => ⟨S1x8, .f32⟩
  | .local _ .vmem, ⟨10, _⟩ => ⟨S10000x8, .f32⟩
  | .local _ .vmem, ⟨11, _⟩ => ⟨S10000x8, .f32⟩
  | .local _ .vmem, ⟨12, _⟩ => ⟨S10000x8, .f32⟩
  | .local _ .vmem, ⟨13, _⟩ => ⟨S10000x8, .f32⟩
  | .local _ .vmem, ⟨14, _⟩ => ⟨S10000x1, .f32⟩
  | .local _ .vmem, ⟨15, _⟩ => ⟨S10000x1, .f32⟩
  | .local _ .vmem, ⟨16, _⟩ => ⟨S1x9, .f32⟩
  | .local _ .vmem, ⟨17, _⟩ => ⟨S1x1, .f32⟩
  | .local _ .vmem, ⟨18, _⟩ => ⟨S10000x8, .f32⟩
  | .local _ .vmem, ⟨19, _⟩ => ⟨S10000x8, .f32⟩
  | .local _ .vmem, ⟨20, _⟩ => ⟨S10000x1, .f32⟩
  | .local _ .vmem, ⟨21, _⟩ => ⟨S10000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_c : Ref sig .tc := ⟨.hbm, 31, rfl⟩
abbrev main_v19 : Ref sig .tc := ⟨.hbm, 32, rfl⟩
abbrev main_v20 : Ref sig .tc := ⟨.hbm, 33, rfl⟩
abbrev main_c_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_3 : Ref sig .tc := ⟨.hbm, 40, rfl⟩
abbrev main_v26 : Ref sig .tc := ⟨.hbm, 41, rfl⟩
abbrev main_v27 : Ref sig .tc := ⟨.hbm, 42, rfl⟩
abbrev main_c_4 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_c_5 : Ref sig .tc := ⟨.hbm, 51, rfl⟩
abbrev main_v35 : Ref sig .tc := ⟨.hbm, 52, rfl⟩
abbrev main_v36 : Ref sig .tc := ⟨.hbm, 53, rfl⟩
abbrev main_c_6 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_7 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_8 : Ref sig .tc := ⟨.hbm, 69, rfl⟩
abbrev main_v50 : Ref sig .tc := ⟨.hbm, 70, rfl⟩
abbrev main_cst_9 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_10 : Ref sig .tc := ⟨.hbm, 75, rfl⟩
abbrev main_v54 : Ref sig .tc := ⟨.hbm, 76, rfl⟩
abbrev main_v55 : Ref sig .tc := ⟨.hbm, 77, rfl⟩
abbrev main_c_11 : Ref sig .tc := ⟨.hbm, 78, rfl⟩
abbrev main_v56 : Ref sig .tc := ⟨.hbm, 79, rfl⟩
abbrev main_v57 : Ref sig .tc := ⟨.hbm, 80, rfl⟩
abbrev main_c_12 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_c_13 : Ref sig .tc := ⟨.hbm, 87, rfl⟩
abbrev main_v63 : Ref sig .tc := ⟨.hbm, 88, rfl⟩
abbrev main_v64 : Ref sig .tc := ⟨.hbm, 89, rfl⟩
abbrev main_c_14 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_c_15 : Ref sig .tc := ⟨.hbm, 98, rfl⟩
abbrev main_v72 : Ref sig .tc := ⟨.hbm, 99, rfl⟩
abbrev main_v73 : Ref sig .tc := ⟨.hbm, 100, rfl⟩
abbrev main_c_16 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_17 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85_0 : Ref sig .tc := ⟨.hbm, 114, rfl⟩
abbrev main_v85_1 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg4_1 : Ref sig .tc := ⟨.vmem, 19, rfl⟩
abbrev cc2_stg5_0 : Ref sig .tc := ⟨.vmem, 20, rfl⟩
abbrev cc2_stg5_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem4_1 : DmaSem sig := 19
abbrev cc2_sem5_0 : DmaSem sig := 20
abbrev cc2_sem5_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x8 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x8 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x8 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x8 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x9 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x8 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S10000x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S100000_S1x100000_1 : S100000.BroadcastsInDim S1x100000 (![1] : Fin 1 → Fin S1x100000.rank)
  shapeCasts_S1x100000_S1x1x1x100000 : S1x100000.ShapeCasts S1x1x1x100000
  bcast_S1x1x1x100000_S2x1x1x100000_0_1_2_3 : S1x1x1x100000.BroadcastsInDim S2x1x1x100000 (![0, 1, 2, 3] : Fin 4 → Fin S2x1x1x100000.rank)
  shapeCasts_S2x1x1x100000_S2x100000 : S2x1x1x100000.ShapeCasts S2x100000
  concatenates_S2x3200000_S2x100000_S2x3300000_d1 : Shape.Concatenates [S2x3200000, S2x100000] S2x3300000 1
  slices_S2x3300000_S1x3300000_0_0 : S2x3300000.Slices ![0, 0] S1x3300000
  shapeCasts_S1x3300000_S3300000 : S1x3300000.ShapeCasts S3300000
  slices_S2x3300000_S1x3300000_1_0 : S2x3300000.Slices ![1, 0] S1x3300000
  transposes_S32x128_S128x32_1_0 : S32x128.Transposes [1, 0] S128x32
  shapeCasts_S32_S1x32 : S32.ShapeCasts S1x32
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S10000x32_S10000x32_0_0 : ∀ a, (![0, 0] : Fin 2 → Nat) a + S10000x32.size a ≤ S10000x32.size a
  h_S10000x32 : 0 < S10000x32.numel
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  transposes_S8x32_S32x8_1_0 : S8x32.Transposes [1, 0] S32x8
  shapeCasts_S8_S1x8 : S8.ShapeCasts S1x8
  shapeCasts_S10000x32_S10000x32 : S10000x32.ShapeCasts S10000x32
  inb_S32x8_S32x8_0_0 : ∀ a, (![0, 0] : Fin 2 → Nat) a + S32x8.size a ≤ S32x8.size a
  h_S32x8 : 0 < S32x8.numel
  shapeCasts_S32x8_S32x8 : S32x8.ShapeCasts S32x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S10000x8 : S1x8.Broadcasts S10000x8
  inb_S10000x8_S10000x8_0_0 : ∀ a, (![0, 0] : Fin 2 → Nat) a + S10000x8.size a ≤ S10000x8.size a
  h_S10000x8 : 0 < S10000x8.numel
  bcast_S3300000x1_S3300000x8_0_1 : S3300000x1.BroadcastsInDim S3300000x8 (![0, 1] : Fin 2 → Fin S3300000x8.rank)
  bcast_S_S100000x8 : S_.BroadcastsInDim S100000x8 (![] : Fin 0 → Fin S100000x8.rank)
  shapeCasts_S1_S1x1 : S1.ShapeCasts S1x1
  shapeCasts_S10000x8_S10000x8 : S10000x8.ShapeCasts S10000x8
  reduces_S10000x8_S10000 : S10000x8.Reduces [1] S10000
  shapeCasts_S10000_S10000x1 : S10000.ShapeCasts S10000x1
  broadcasts_S10000x1_S10000x8 : S10000x1.Broadcasts S10000x8
  inb_S1x9_S1x9_0_0 : ∀ a, (![0, 0] : Fin 2 → Nat) a + S1x9.size a ≤ S1x9.size a
  h_S1x9 : 0 < S1x9.numel
  slices_S1x9_o0_0_S1x8 : S1x9.Slices ![0, 0] S1x8
  slices_S1x9_o0_8_S1x1 : S1x9.Slices ![0, 8] S1x1
  inb_S10000x1_S10000x1_0_0 : ∀ a, (![0, 0] : Fin 2 → Nat) a + S10000x1.size a ≤ S10000x1.size a
  h_S10000x1 : 0 < S10000x1.numel
  broadcasts_S1x1_S10000x1 : S1x1.Broadcasts S10000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  dot_S10000x128_S128x32_S10000x32_1_0_0_1_n_n_wf : DotDims.WF S10000x128 S128x32 S10000x32 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S10000x32_S32x8_S10000x8_1_0_0_1_n_n_wf : DotDims.WF S10000x32 S32x8 S10000x8 [1] [0] [0] [1] [] []
  gather_S100000x8_S3300000x1_S3300000x8_1_0_n_n_0_1_18_wf : GatherDims.WF S100000x8 S3300000x1 S3300000x8 [1] [0] [] [0] [] 1 ![1, 8]
  scatter_S100000x8_S3300000x1_S3300000x8_1_0_0_1_wf : ScatterDims.WF S100000x8 S3300000x1 S3300000x8 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x32.size a ≤ S100000x32.size a
  hwx0_3 : ∀ i : grid0.Coords, EltTy.bits .f32 = 32 ∨ (Rect.block (s := S100000x32) S10000x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x8.size a ≤ S32x8.size a
  hwx1_1 : ∀ i : grid1.Coords, EltTy.bits .f32 = 32 ∨ (Rect.block (s := S32x8) S32x8.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x8.size a ≤ S1x8.size a
  hwx1_2 : ∀ i : grid1.Coords, EltTy.bits .f32 = 32 ∨ (Rect.block (s := S1x8) S1x8.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x8.size a ≤ S100000x8.size a
  hwx1_3 : ∀ i : grid1.Coords, EltTy.bits .f32 = 32 ∨ (Rect.block (s := S100000x8) S10000x8.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x8.size a ≤ S100000x8.size a
  hwx2_0 : ∀ i : grid2.Coords, EltTy.bits .f32 = 32 ∨ (Rect.block (s := S100000x8) S10000x8.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S100000x1.size a
  hwx2_1 : ∀ i : grid2.Coords, EltTy.bits .f32 = 32 ∨ (Rect.block (s := S100000x1) S10000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x9.size a ≤ S1x9.size a
  hwx2_2 : ∀ i : grid2.Coords, EltTy.bits .f32 = 32 ∨ (Rect.block (s := S1x9) S1x9.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x8.size a ≤ S100000x8.size a
  hwx2_4 : ∀ i : grid2.Coords, EltTy.bits .f32 = 32 ∨ (Rect.block (s := S100000x8) S10000x8.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x1.size a ≤ S100000x1.size a
  hwx2_5 : ∀ i : grid2.Coords, EltTy.bits .f32 = 32 ∨ (Rect.block (s := S100000x1) S10000x1.size (cc2_transform_5 i) (hinb2_5 i)).WholeWords (EltTy.packing .f32)

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S10000x32_S32x8_S10000x8_1_0_0_1_n_n : DotDims S10000x32 S32x8 S10000x8 where
  lhsContracting := [1]
  rhsContracting := [0]
  lhsNonContracting := [0]
  rhsNonContracting := [1]
  lhsBatch := []
  rhsBatch := []
  wf := dot_S10000x32_S32x8_S10000x8_1_0_0_1_n_n_wf
def gather_S100000x8_S3300000x1_S3300000x8_1_0_n_n_0_1_18 : GatherDims S100000x8 S3300000x1 S3300000x8 where
  offsetDims := [1]
  collapsedSliceDims := [0]
  operandBatchingDims := []
  startIndicesBatchingDims := []
  startIndexMap := [0]
  indexVectorDim := 1
  sliceSizes := ![1, 8]
  wf := gather_S100000x8_S3300000x1_S3300000x8_1_0_n_n_0_1_18_wf
def scatter_S100000x8_S3300000x1_S3300000x8_1_0_0_1 : ScatterDims S100000x8 S3300000x1 S3300000x8 where
  updateWindowDims := [1]
  insertedWindowDims := [0]
  scatterDimsToOperandDims := [0]
  indexVectorDim := 1
  wf := scatter_S100000x8_S3300000x1_S3300000x8_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S10000x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v46) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S32x8.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S1x8.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v49) S10000x8.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v83) S10000x8.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S1x9.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v84) S1x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v85_0) S10000x8.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v85_1) S10000x1.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S100000x1 : Shape := ⟨2, ![100000, 1]⟩
abbrev S32x128 : Shape := ⟨2, ![32, 128]⟩
abbrev S32 : Shape := ⟨1, ![32]⟩
abbrev S8x32 : Shape := ⟨2, ![8, 32]⟩
abbrev S8 : Shape := ⟨1, ![8]⟩
abbrev S1x9 : Shape := ⟨2, ![1, 9]⟩
abbrev S1 : Shape := ⟨1, ![1]⟩
abbrev S100000 : Shape := ⟨1, ![100000]⟩
abbrev S1x100000 : Shape := ⟨2, ![1, 100000]⟩
abbrev S1x1x1x100000 : Shape := ⟨4, ![1, 1, 1, 100000]⟩
abbrev S2x1x1x100000 : Shape := ⟨4, ![2, 1, 1, 100000]⟩
abbrev S2x100000 : Shape := ⟨2, ![2, 100000]⟩
abbrev S2x3300000 : Shape := ⟨2, ![2, 3300000]⟩
abbrev S1x3300000 : Shape := ⟨2, ![1, 3300000]⟩
abbrev S3300000 : Shape := ⟨1, ![3300000]⟩
abbrev S128x32 : Shape := ⟨2, ![128, 32]⟩
abbrev S100000x32 : Shape := ⟨2, ![100000, 32]⟩
abbrev S1x32 : Shape := ⟨2, ![1, 32]⟩
abbrev S_ : Shape := ⟨0, ![]⟩
abbrev S3300000x1 : Shape := ⟨2, ![3300000, 1]⟩
abbrev S3300000x32 : Shape := ⟨2, ![3300000, 32]⟩
abbrev S32x8 : Shape := ⟨2, ![32, 8]⟩
abbrev S100000x8 : Shape := ⟨2, ![100000, 8]⟩
abbrev S1x8 : Shape := ⟨2, ![1, 8]⟩
abbrev S3300000x8 : Shape := ⟨2, ![3300000, 8]⟩
abbrev S100000x9 : Shape := ⟨2, ![100000, 9]⟩
abbrev S9x1 : Shape := ⟨2, ![9, 1]⟩
abbrev S1x1 : Shape := ⟨2, ![1, 1]⟩

abbrev nBuf : Space → Nat
  | .hbm => 144
  | .vmem => 0
  | .smem => 0
  | _ => 0

abbrev hbmTy0_0 (i : Nat) : BufTy := match i % 128 with
  | 0 => ⟨S100000x128, .f32⟩
  | 1 => ⟨S2x3200000, .i32⟩
  | 2 => ⟨S100000x1, .f32⟩
  | 3 => ⟨S32x128, .f32⟩
  | 4 => ⟨S32, .f32⟩
  | 5 => ⟨S8x32, .f32⟩
  | 6 => ⟨S8, .f32⟩
  | 7 => ⟨S1x9, .f32⟩
  | 8 => ⟨S1, .f32⟩
  | 9 => ⟨S100000, .i32⟩
  | 10 => ⟨S1x100000, .i32⟩
  | 11 => ⟨S1x1x1x100000, .i32⟩
  | 12 => ⟨S2x1x1x100000, .i32⟩
  | 13 => ⟨S2x100000, .i32⟩
  | 14 => ⟨S2x3300000, .i32⟩
  | 15 => ⟨S1x3300000, .i32⟩
  | 16 => ⟨S3300000, .i32⟩
  | 17 => ⟨S1x3300000, .i32⟩
  | 18 => ⟨S3300000, .i32⟩
  | 19 => ⟨S128x32, .f32⟩
  | 20 => ⟨S100000x32, .f32⟩
  | 21 => ⟨S1x32, .f32⟩
  | 22 => ⟨S100000x32, .f32⟩
  | 23 => ⟨S100000x32, .f32⟩
  | 24 => ⟨S_, .f32⟩
  | 25 => ⟨S3300000, .f32⟩
  | 26 => ⟨S_, .f32⟩
  | 27 => ⟨S100000, .f32⟩
  | 28 => ⟨S3300000x1, .i32⟩
  | 29 => ⟨S100000, .f32⟩
  | 30 => ⟨S_, .f32⟩
  | 31 => ⟨S100000, .f32⟩
  | 32 => ⟨S100000, .f32⟩
  | 33 => ⟨S_, .i32⟩
  | 34 => ⟨S3300000, .i32⟩
  | 35 => ⟨S3300000, .i1⟩
  | 36 => ⟨S_, .i32⟩
  | 37 => ⟨S3300000, .i32⟩
  | 38 => ⟨S3300000, .i32⟩
  | 39 => ⟨S3300000, .i32⟩
  | 40 => ⟨S3300000x1, .i32⟩
  | 41 => ⟨S3300000, .f32⟩
  | 42 => ⟨S_, .i32⟩
  | 43 => ⟨S3300000, .i32⟩
  | 44 => ⟨S3300000, .i1⟩
  | 45 => ⟨S_, .i32⟩
  | 46 => ⟨S3300000, .i32⟩
  | 47 => ⟨S3300000, .i32⟩
  | 48 => ⟨S3300000, .i32⟩
  | 49 => ⟨S3300000x1, .i32⟩
  | 50 => ⟨S3300000, .f32⟩
  | 51 => ⟨S3300000, .f32⟩
  | 52 => ⟨S3300000x1, .f32⟩
  | 53 => ⟨S_, .i32⟩
  | 54 => ⟨S3300000, .i32⟩
  | 55 => ⟨S3300000, .i1⟩
  | 56 => ⟨S_, .i32⟩
  | 57 => ⟨S3300000, .i32⟩
  | 58 => ⟨S3300000, .i32⟩
  | 59 => ⟨S3300000, .i32⟩
  | 60 => ⟨S3300000x1, .i32⟩
  | 61 => ⟨S3300000x32, .f32⟩
  | 62 => ⟨S3300000x32, .f32⟩
  | 63 => ⟨S3300000x32, .f32⟩
  | 64 => ⟨S_, .f32⟩
  | 65 => ⟨S100000x32, .f32⟩
  | 66 => ⟨S3300000x1, .i32⟩
  | 67 => ⟨S100000x32, .f32⟩
  | 68 => ⟨S_, .f32⟩
  | 69 => ⟨S100000x32, .f32⟩
  | 70 => ⟨S100000x32, .f32⟩
  | 71 => ⟨S32x8, .f32⟩
  | 72 => ⟨S100000x8, .f32⟩
  | 73 => ⟨S1x8, .f32⟩
  | 74 => ⟨S100000x8, .f32⟩
  | 75 => ⟨S100000x8, .f32⟩
  | 76 => ⟨S_, .f32⟩
  | 77 => ⟨S3300000, .f32⟩
  | 78 => ⟨S_, .f32⟩
  | 79 => ⟨S100000, .f32⟩
  | 80 => ⟨S3300000x1, .i32⟩
  | 81 => ⟨S100000, .f32⟩
  | 82 => ⟨S_, .f32⟩
  | 83 => ⟨S100000, .f32⟩
  | 84 => ⟨S100000, .f32⟩
  | 85 => ⟨S_, .i32⟩
  | 86 => ⟨S3300000, .i32⟩
  | 87 => ⟨S3300000, .i1⟩
  | 88 => ⟨S_, .i32⟩
  | 89 => ⟨S3300000, .i32⟩
  | 90 => ⟨S3300000, .i32⟩
  | 91 => ⟨S3300000, .i32⟩
  | 92 => ⟨S3300000x1, .i32⟩
  | 93 => ⟨S3300000, .f32⟩
  | 94 => ⟨S_, .i32⟩
  | 95 => ⟨S3300000, .i32⟩
  | 96 => ⟨S3300000, .i1⟩
  | 97 => ⟨S_, .i32⟩
  | 98 => ⟨S3300000, .i32⟩
  | 99 => ⟨S3300000, .i32⟩
  | 100 => ⟨S3300000, .i32⟩
  | 101 => ⟨S3300000x1, .i32⟩
  | 102 => ⟨S3300000, .f32⟩
  | 103 => ⟨S3300000, .f32⟩
  | 104 => ⟨S3300000x1, .f32⟩
  | 105 => ⟨S_, .i32⟩
  | 106 => ⟨S3300000, .i32⟩
  | 107 => ⟨S3300000, .i1⟩
  | 108 => ⟨S_, .i32⟩
  | 109 => ⟨S3300000, .i32⟩
  | 110 => ⟨S3300000, .i32⟩
  | 111 => ⟨S3300000, .i32⟩
  | 112 => ⟨S3300000x1, .i32⟩
  | 113 => ⟨S3300000x8, .f32⟩
  | 114 => ⟨S3300000x8, .f32⟩
  | 115 => ⟨S3300000x8, .f32⟩
  | 116 => ⟨S_, .f32⟩
  | 117 => ⟨S100000x8, .f32⟩
  | 118 => ⟨S3300000x1, .i32⟩
  | 119 => ⟨S100000x8, .f32⟩
  | 120 => ⟨S_, .f32⟩
  | 121 => ⟨S100000, .f32⟩
  | 122 => ⟨S_, .f32⟩
  | 123 => ⟨S100000, .f32⟩
  | 124 => ⟨S100000, .f32⟩
  | 125 => ⟨S100000x1, .f32⟩
  | 126 => ⟨S100000x8, .f32⟩
  | 127 => ⟨S100000x8, .f32⟩
  | _ => ⟨S100000x128, .f32⟩

abbrev hbmTy0_1 (i : Nat) : BufTy := match i % 128 with
  | 0 => ⟨S100000x8, .f32⟩
  | 1 => ⟨S_, .f32⟩
  | 2 => ⟨S100000, .f32⟩
  | 3 => ⟨S100000x1, .f32⟩
  | 4 => ⟨S100000x1, .f32⟩
  | 5 => ⟨S100000x8, .f32⟩
  | 6 => ⟨S100000x8, .f32⟩
  | 7 => ⟨S100000x9, .f32⟩
  | 8 => ⟨S9x1, .f32⟩
  | 9 => ⟨S100000x1, .f32⟩
  | 10 => ⟨S1x1, .f32⟩
  | 11 => ⟨S100000x1, .f32⟩
  | 12 => ⟨S100000x1, .f32⟩
  | 13 => ⟨S_, .f32⟩
  | 14 => ⟨S100000x1, .f32⟩
  | 15 => ⟨S100000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_cst_0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_c : Ref sig .tc := ⟨.hbm, 33, rfl⟩
abbrev main_v21 : Ref sig .tc := ⟨.hbm, 34, rfl⟩
abbrev main_v22 : Ref sig .tc := ⟨.hbm, 35, rfl⟩
abbrev main_c_2 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_3 : Ref sig .tc := ⟨.hbm, 42, rfl⟩
abbrev main_v28 : Ref sig .tc := ⟨.hbm, 43, rfl⟩
abbrev main_v29 : Ref sig .tc := ⟨.hbm, 44, rfl⟩
abbrev main_c_4 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_c_5 : Ref sig .tc := ⟨.hbm, 53, rfl⟩
abbrev main_v37 : Ref sig .tc := ⟨.hbm, 54, rfl⟩
abbrev main_v38 : Ref sig .tc := ⟨.hbm, 55, rfl⟩
abbrev main_c_6 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_7 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_call0_cst : Ref sig .tc := ⟨.hbm, 68, rfl⟩
abbrev main_call0_v0 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_8 : Ref sig .tc := ⟨.hbm, 76, rfl⟩
abbrev main_v55 : Ref sig .tc := ⟨.hbm, 77, rfl⟩
abbrev main_cst_9 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_10 : Ref sig .tc := ⟨.hbm, 82, rfl⟩
abbrev main_v59 : Ref sig .tc := ⟨.hbm, 83, rfl⟩
abbrev main_v60 : Ref sig .tc := ⟨.hbm, 84, rfl⟩
abbrev main_c_11 : Ref sig .tc := ⟨.hbm, 85, rfl⟩
abbrev main_v61 : Ref sig .tc := ⟨.hbm, 86, rfl⟩
abbrev main_v62 : Ref sig .tc := ⟨.hbm, 87, rfl⟩
abbrev main_c_12 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_c_13 : Ref sig .tc := ⟨.hbm, 94, rfl⟩
abbrev main_v68 : Ref sig .tc := ⟨.hbm, 95, rfl⟩
abbrev main_v69 : Ref sig .tc := ⟨.hbm, 96, rfl⟩
abbrev main_c_14 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_c_15 : Ref sig .tc := ⟨.hbm, 105, rfl⟩
abbrev main_v77 : Ref sig .tc := ⟨.hbm, 106, rfl⟩
abbrev main_v78 : Ref sig .tc := ⟨.hbm, 107, rfl⟩
abbrev main_c_16 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_cst_17 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_call1_cst : Ref sig .tc := ⟨.hbm, 120, rfl⟩
abbrev main_call1_v0 : Ref sig .tc := ⟨.hbm, 121, rfl⟩
abbrev main_call1_cst_0 : Ref sig .tc := ⟨.hbm, 122, rfl⟩
abbrev main_call1_v1 : Ref sig .tc := ⟨.hbm, 123, rfl⟩
abbrev main_call1_v2 : Ref sig .tc := ⟨.hbm, 124, rfl⟩
abbrev main_call1_v3 : Ref sig .tc := ⟨.hbm, 125, rfl⟩
abbrev main_call1_v4 : Ref sig .tc := ⟨.hbm, 126, rfl⟩
abbrev main_call1_v5 : Ref sig .tc := ⟨.hbm, 127, rfl⟩
abbrev main_call1_v6 : Ref sig .tc := ⟨.hbm, 128, rfl⟩
abbrev main_call1_cst_1 : Ref sig .tc := ⟨.hbm, 129, rfl⟩
abbrev main_call1_v7 : Ref sig .tc := ⟨.hbm, 130, rfl⟩
abbrev main_call1_v8 : Ref sig .tc := ⟨.hbm, 131, rfl⟩
abbrev main_call1_v9 : Ref sig .tc := ⟨.hbm, 132, rfl⟩
abbrev main_call1_v10 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_call2_cst : Ref sig .tc := ⟨.hbm, 141, rfl⟩
abbrev main_call2_v0 : Ref sig .tc := ⟨.hbm, 142, rfl⟩
abbrev main_v96 : Ref sig .tc := ⟨.hbm, 143, rfl⟩

abbrev nD : Nat := 1
abbrev τ : Topo := Topo.v7x

variable {F : FTy → Type} [FloatOps F]

class Facts₀ : Prop where
  bcast_S100000_S1x100000_1 : S100000.BroadcastsInDim S1x100000 (![1] : Fin 1 → Fin S1x100000.rank)
  shapeCasts_S1x100000_S1x1x1x100000 : S1x100000.ShapeCasts S1x1x1x100000
  bcast_S1x1x1x100000_S2x1x1x100000_0_1_2_3 : S1x1x1x100000.BroadcastsInDim S2x1x1x100000 (![0, 1, 2, 3] : Fin 4 → Fin S2x1x1x100000.rank)
  shapeCasts_S2x1x1x100000_S2x100000 : S2x1x1x100000.ShapeCasts S2x100000
  concatenates_S2x3200000_S2x100000_S2x3300000_d1 : Shape.Concatenates [S2x3200000, S2x100000] S2x3300000 1
  slices_S2x3300000_S1x3300000_0_0 : S2x3300000.Slices ![0, 0] S1x3300000
  shapeCasts_S1x3300000_S3300000 : S1x3300000.ShapeCasts S3300000
  slices_S2x3300000_S1x3300000_1_0 : S2x3300000.Slices ![1, 0] S1x3300000
  transposes_S32x128_S128x32_1_0 : S32x128.Transposes [1, 0] S128x32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  transposes_S8x32_S32x8_1_0 : S8x32.Transposes [1, 0] S32x8
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  bcast_S3300000x1_S3300000x8_0_1 : S3300000x1.BroadcastsInDim S3300000x8 (![0, 1] : Fin 2 → Fin S3300000x8.rank)
  bcast_S_S100000x8 : S_.BroadcastsInDim S100000x8 (![] : Fin 0 → Fin S100000x8.rank)
  reducesTo_S100000x8_S100000_d1 : S100000x8.ReducesTo [1] S100000
  h_S_ : 0 < S_.numel
  bcast_S100000_S100000x1_0 : S100000.BroadcastsInDim S100000x1 (![0] : Fin 1 → Fin S100000x1.rank)
  bcast_S100000x1_S100000x8_0_1 : S100000x1.BroadcastsInDim S100000x8 (![0, 1] : Fin 2 → Fin S100000x8.rank)
  concatenates_S100000x8_S100000x1_S100000x9_d1 : Shape.Concatenates [S100000x8, S100000x1] S100000x9 1
  transposes_S1x9_S9x1_1_0 : S1x9.Transposes [1, 0] S9x1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  dot_S100000x128_S128x32_S100000x32_1_0_0_1_n_n_wf : DotDims.WF S100000x128 S128x32 S100000x32 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S100000x32_S32x8_S100000x8_1_0_0_1_n_n_wf : DotDims.WF S100000x32 S32x8 S100000x8 [1] [0] [0] [1] [] []
  gather_S100000x8_S3300000x1_S3300000x8_1_0_n_n_0_1_18_wf : GatherDims.WF S100000x8 S3300000x1 S3300000x8 [1] [0] [] [0] [] 1 ![1, 8]
  scatter_S100000x8_S3300000x1_S3300000x8_1_0_0_1_wf : ScatterDims.WF S100000x8 S3300000x1 S3300000x8 [1] [0] [0] 1
  dot_S100000x9_S9x1_S100000x1_1_0_0_1_n_n_wf : DotDims.WF S100000x9 S9x1 S100000x1 [1] [0] [0] [1] [] []

variable [Facts₀]

def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S100000x32_S32x8_S100000x8_1_0_0_1_n_n : DotDims S100000x32 S32x8 S100000x8 where
  lhsContracting := [1]
  rhsContracting := [0]
  lhsNonContracting := [0]
  rhsNonContracting := [1]
  lhsBatch := []
  rhsBatch := []
  wf := dot_S100000x32_S32x8_S100000x8_1_0_0_1_n_n_wf
def gather_S100000x8_S3300000x1_S3300000x8_1_0_n_n_0_1_18 : GatherDims S100000x8 S3300000x1 S3300000x8 where
  offsetDims := [1]
  collapsedSliceDims := [0]
  operandBatchingDims := []
  startIndicesBatchingDims := []
  startIndexMap := [0]
  indexVectorDim := 1
  sliceSizes := ![1, 8]
  wf := gather_S100000x8_S3300000x1_S3300000x8_1_0_n_n_0_1_18_wf
def scatter_S100000x8_S3300000x1_S3300000x8_1_0_0_1 : ScatterDims S100000x8 S3300000x1 S3300000x8 where
  updateWindowDims := [1]
  insertedWindowDims := [0]
  scatterDimsToOperandDims := [0]
  indexVectorDim := 1
  wf := scatter_S100000x8_S3300000x1_S3300000x8_1_0_0_1_wf
def dot_S100000x9_S9x1_S100000x1_1_0_0_1_n_n : DotDims S100000x9 S9x1 S100000x1 where
  lhsContracting := [1]
  rhsContracting := [0]
  lhsNonContracting := [0]
  rhsNonContracting := [1]
  lhsBatch := []
  rhsBatch := []
  wf := dot_S100000x9_S9x1_S100000x1_1_0_0_1_n_n_wf

class Facts : Prop extends Facts₀ where

variable [Facts]
-- ==== Proof.WholeRun.lean ====
/-
  The whole program's run with its two results named. The program is three launches of chip kernels among stretches
  of host operations; its run is the chain of those six segments, and the memory after the last segment is the fold
  `W6` of the launch memory through them. Every weakly fair execution terminates, without a fault, with each result
  buffer at `W6`'s contents and each argument as launched.
-/
import proofs.«152048_j65025804862040_1_alg».proof.Proof.Gen.KernelIdeal.Frame

set_option maxRecDepth 16384

noncomputable section

namespace Cert.KernelIdeal.WholeRun

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the chain rule's implicit arguments are found by unifying its conclusion with this one, which takes unfolding
-- plain definitions in a metavariable's type
set_option backward.isDefEq.respectTransparency.types false in
/-- The run: termination without a fault, the two results at the last boundary's contents, the arguments unchanged. -/
theorem run_results : θ_run defs (onTc (τ := τ) (main (F := F))) ⟨m, fun _ => 0, ρ⟩ (fun r => ∀ c : Dev nD,
      r.2.mem ((c.tc : Thread nD τ).loc main_v85_1) = W6 m ρ c (Proc.devRef .tc main_v85_1)
      ∧ r.2.mem ((c.tc : Thread nD τ).loc main_v85_0) = W6 m ρ c (Proc.devRef .tc main_v85_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v85_1 (by decide)), h c _ (mem_uc main_v85_0 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c)⟩)

end Cert.KernelIdeal.WholeRun

end
-- ==== Proof.FirstLayer.lean ====
/-
  The first dense layer on the chip. The node matrix (100000 × 128) is cut into ten blocks of 10000 rows; at block `t` the
  body multiplies the block with the whole transposed weight matrix (128 × 32) and adds the bias row, and the result is
  written back as rows `10000·t … 10000·t + 9999` of the output. Entry (p, q) of what block `t` computes is
  `Σ_k x (10000·t + p, k) · wt (k, q) + b (0, q)`: one function of the absolute row at every block, so the array after
  the ten write-backs is that function on all 100000 rows. (Rounding the operands to bf16 is the identity on the
  extended reals.)
-/
import proofs.«152048_j65025804862040_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.FirstLayer

open Cert.KernelIdeal Cert.KernelIdeal.Gen Idealize.ShloMosaic Idealize.ShloMosaic.TcCoe Idealize.SL.Sem
open Idealize.ShloMosaic.ValueIdx
open Idealize.ShloMosaic.Pipeline (Dat Cfg Window)

/-- The contraction record of the body's matrix product. -/
abbrev D : DotDims S10000x128 S128x32 S10000x32 := dot_S10000x128_S128x32_S10000x32_1_0_0_1_n_n

theorem lhs_0 (j : S10000x32.Idx) (q : D.contr.Idx) : (D.lhsIdx j q 0).val = (j 0).val := by
  unfold DotDims.lhsIdx
  rw [dif_neg (show ¬(0 : Fin S10000x128.rank) ∈ D.lhsBatch by decide), dif_pos (show (0 : Fin S10000x128.rank) ∈ D.lhsNonContracting by decide)]
  rfl
theorem lhs_1 (j : S10000x32.Idx) (q : D.contr.Idx) : (D.lhsIdx j q 1).val = (q ⟨0, by decide⟩).val :=
  D.lhsIdx_val_of_single rfl j q
theorem rhs_0 (j : S10000x32.Idx) (q : D.contr.Idx) : (D.rhsIdx j q 0).val = (q ⟨0, by decide⟩).val :=
  D.rhsIdx_val_of_single rfl j q
theorem rhs_1 (j : S10000x32.Idx) (q : D.contr.Idx) : (D.rhsIdx j q 1).val = (j 1).val := by
  unfold DotDims.rhsIdx
  rw [dif_neg (show ¬(1 : Fin S128x32.rank) ∈ D.rhsBatch by decide), dif_pos (show (1 : Fin S128x32.rank) ∈ D.rhsNonContracting by decide)]
  rfl

/-- The matrix product into a zero accumulator, entry (p, q): the sum over the 128 shared coordinates. -/
theorem product_apply (l : FVec Ideal S10000x128 .bf16) (r : FVec Ideal S128x32 .bf16) (p : Fin 10000) (q : Fin 32) :
    matmul D none l r (constant S10000x32 .f32 0x00000000#32) (ix2 p q) = ∑ k : Fin 128, l (ix2 p k) * r (ix2 k q) := by
  simp only [matmul]
  rw [Ideal.matmul_constant_zero_apply, ← Equiv.sum_comp (contrEquiv1 D 128 rfl rfl).symm]
  refine Finset.sum_congr rfl fun k _ => ?_
  have hk := contrEquiv1_symm_val D 128 rfl rfl k
  have el : D.lhsIdx (ix2 p q) ((contrEquiv1 D 128 rfl rfl).symm k) = ix2 p k := funext fun a => Fin.ext (by
    match a with
    | ⟨0, _⟩ => exact lhs_0 _ _
    | ⟨1, _⟩ => exact (lhs_1 _ _).trans hk)
  have er : D.rhsIdx (ix2 p q) ((contrEquiv1 D 128 rfl rfl).symm k) = ix2 k q := funext fun a => Fin.ext (by
    match a with
    | ⟨0, _⟩ => exact (rhs_0 _ _).trans hk
    | ⟨1, _⟩ => exact rhs_1 _ _)
  rw [el, er]

/-- What the body stores, entry (p, q): the row of the block times the column of the weights, plus the bias entry. -/
theorem stored_apply (x0 : Vec Ideal S10000x128 .f32) (x1 : Vec Ideal S128x32 .f32) (x2 : Vec Ideal S1x32 .f32) (p : Fin 10000) (q : Fin 32) :
    k0_pay1 (F := Ideal) x0 x1 x2 (ix2 p q) = (∑ k : Fin 128, x0 (ix2 p k) * x1 (ix2 k q)) + x2 (ix2 (0 : Fin 1) q) := by
  unfold k0_pay1
  rw [addf_apply, shapeCast_self, shapeCast_self]
  refine congrArg₂ (· + ·) ?_ ?_
  · exact product_apply _ _ p q
  · exact broadcastTo_1b_ab_apply x2 _ p q

/-! ## From the ten blocks to the whole array -/

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at grid point `t`: the node rows move with `t`, the weights and the bias stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 ∧ t.val < 10 :=
  (by decide +kernel : ∀ t : Fin grid0.N, _)

/-- The absolute row of row `p` of block `t`. -/
def row (t : Fin cfg0.N) (p : Fin 10000) : Fin 100000 :=
  ⟨t.val * 10000 + p.val, by have := (idx_facts t).2.2.2.2.2.2.2.2; have := p.isLt; omega⟩

/-- What the region's output array holds after the run, from the three arrays the region reads. -/
def G (a0 : S100000x128.Idx → Elt Ideal .f32) (a1 : S128x32.Idx → Elt Ideal .f32) (a2 : S1x32.Idx → Elt Ideal .f32) :
    S100000x32.Idx → Elt Ideal .f32 :=
  fun i => (∑ k : Fin 128, a0 (ix2 (i 0) k) * a1 (ix2 k (i 1))) + a2 (ix2 (0 : Fin 1) (i 1))

theorem emb_x (t : Fin cfg0.N) (p : Fin 10000) (k : Fin 128) :
    ((cfg0.win 0).blk t).view.emb (ix2 p k) = ix2 (row t p) k := by
  obtain ⟨e0, e1, -⟩ := idx_facts t
  funext a; apply Fin.ext
  match a with
  | ⟨0, _⟩ => show win0_0.index t (0 : Fin 2) * 10000 + 1 * p.val = t.val * 10000 + p.val; omega
  | ⟨1, _⟩ => show win0_0.index t (1 : Fin 2) * 128 + 1 * k.val = k.val; omega

theorem emb_w (t : Fin cfg0.N) (k : Fin 128) (q : Fin 32) :
    ((cfg0.win 1).blk t).view.emb (ix2 k q) = ix2 k q := by
  obtain ⟨-, -, e0, e1, -⟩ := idx_facts t
  funext a; apply Fin.ext
  match a with
  | ⟨0, _⟩ => show win0_1.index t (0 : Fin 2) * 128 + 1 * k.val = k.val; omega
  | ⟨1, _⟩ => show win0_1.index t (1 : Fin 2) * 32 + 1 * q.val = q.val; omega

theorem emb_b (t : Fin cfg0.N) (q : Fin 32) :
    ((cfg0.win 2).blk t).view.emb (ix2 (0 : Fin 1) q) = ix2 (0 : Fin 1) q := by
  obtain ⟨-, -, -, -, e0, e1, -⟩ := idx_facts t
  funext a; apply Fin.ext
  match a with
  | ⟨0, _⟩ => show win0_2.index t (0 : Fin 2) * 1 + 1 * 0 = 0; omega
  | ⟨1, _⟩ => show win0_2.index t (1 : Fin 2) * 32 + 1 * q.val = q.val; omega

theorem emb_o (t : Fin cfg0.N) (p : Fin 10000) (q : Fin 32) :
    ((cfg0.win 3).blk t).view.emb (ix2 p q) = ix2 (row t p) q := by
  obtain ⟨-, -, -, -, -, -, e0, e1, -⟩ := idx_facts t
  funext a; apply Fin.ext
  match a with
  | ⟨0, _⟩ => show win0_3.index t (0 : Fin 2) * 10000 + 1 * p.val = t.val * 10000 + p.val; omega
  | ⟨1, _⟩ => show win0_3.index t (1 : Fin 2) * 32 + 1 * q.val = q.val; omega

/-- Entry (p, q) of block `t`, read through the windows, is `G` at the absolute row. -/
theorem block_entry (X : S100000x128.Idx → EReal) (Wt : S128x32.Idx → EReal) (B : S1x32.Idx → EReal)
    (t : Fin cfg0.N) (p : Fin 10000) (q : Fin 32) :
    (∑ k : Fin 128, X (((cfg0.win 0).blk t).view.emb (ix2 p k)) * Wt (((cfg0.win 1).blk t).view.emb (ix2 k q)))
      + B (((cfg0.win 2).blk t).view.emb (ix2 (0 : Fin 1) q))
    = G X Wt B (((cfg0.win 3).blk t).view.emb (ix2 p q)) := by
  rw [emb_o, emb_b]
  show _ = (∑ k : Fin 128, X (ix2 (row t p) k) * Wt (ix2 k q)) + B (ix2 (0 : Fin 1) q)
  refine congrArg₂ (· + ·) (Finset.sum_congr rfl fun k _ => ?_) rfl
  rw [emb_x, emb_w]

/-- What grid point `t` writes back is block `t` of `G` of the arrays as the region finds them. -/
theorem flushed_eq (c : Dev nD) (t : Fin cfg0.N) :
    (dat0 V c).flushed 3 t = ((cfg0.win 3).blk t).view.read (Elt Ideal) (G (V c main_arg0) (V c main_v10) (V c main_v11)) := by
  show (cfg0.win 3).cut (grid0.coords t) ((dat0 V c).after 3 t) = _
  rw [after0_3]
  unfold out0_3
  rw [View.canon_unit_zero hz]
  simp only [View.ld_unit_zero (S := S10000x128) hz, View.ld_unit_zero (S := S128x32) hz, View.ld_unit_zero (S := S1x32) hz]
  funext j
  obtain ⟨p, q, rfl⟩ : ∃ (p : Fin 10000) (q : Fin 32), j = ix2 p q := ⟨j 0, j 1, eq_ix2 j⟩
  refine (stored_apply (iblk0 V c 0 t) (iblk0 V c 1 t) (iblk0 V c 2 t) p q).trans ?_
  exact block_entry (V c main_arg0) (V c main_v10) (V c main_v11) t p q

/-- An index of the output array is in block `t` iff each coordinate is in the block's range on its axis. -/
theorem mem_blk (t : Fin cfg0.N) (i : S100000x32.Idx) :
    i ∈ ((cfg0.win 3).blk t).view.set ↔ ∀ a : Fin 2, win0_3.index t a * S10000x32.size a ≤ (i a).val ∧ (i a).val < win0_3.index t a * S10000x32.size a + S10000x32.size a := by
  show i ∈ ((View.whole main_v12).slice (win0_3.rect t)).set ↔ _
  rw [View.set_slice_whole, Rect.mem_set_unit]
  exact Iff.rfl

/-- Every row lies in the block of its quotient by 10000. -/
theorem cover (i : S100000x32.Idx) : ∃ t : Fin cfg0.N, (cfg0.win 3).flush t = true ∧ i ∈ ((cfg0.win 3).blk t).view.set := by
  have hi0 : (i 0).val < 100000 := (i 0).isLt
  have hi1 : (i 1).val < 32 := (i 1).isLt
  have hN : cfg0.N = 10 := N_0
  obtain ⟨t, ht⟩ : ∃ t : Fin cfg0.N, t.val = (i 0).val / 10000 := ⟨⟨(i 0).val / 10000, by omega⟩, rfl⟩
  obtain ⟨-, -, -, -, -, -, e0, e1, -⟩ := idx_facts t
  refine ⟨t, flush0_3 t, ?_⟩
  rw [mem_blk]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 32 ≤ (i 1).val ∧ (i 1).val < win0_3.index t (1 : Fin 2) * 32 + 32; omega

/-- The output array after the region: `G` of the three arrays the region reads, on every row. -/
theorem final (c : Dev nD) : (dat0 V c).arrAt 3 cfg0.N = G (V c main_arg0) (V c main_v10) (V c main_v11) :=
  (dat0 V c).arrAt_eq_of_cover 3 _ (fun t _ => flushed_eq V c t) cover

end Cert.KernelIdeal.FirstLayer

end
-- ==== Proof.SecondLayer.lean ====
/-
  The second dense layer on the chip, with the rectifier in front. The aggregated node matrix (100000 × 32) is cut into
  ten blocks of 10000 rows; at block `t` the body clamps the block below at zero, multiplies it with the whole transposed
  weight matrix (32 × 8) and adds the bias row. Entry (p, q) of what block `t` computes is
  `Σ_k max (a (10000·t + p, k)) 0 · wt (k, q) + b (0, q)`: one function of the absolute row at every block, so the array
  after the ten write-backs is that function on all 100000 rows.
-/
import proofs.«152048_j65025804862040_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.SecondLayer

open Cert.KernelIdeal Cert.KernelIdeal.Gen Idealize.ShloMosaic Idealize.ShloMosaic.TcCoe Idealize.SL.Sem
open Idealize.ShloMosaic.ValueIdx
open Idealize.ShloMosaic.Pipeline (Dat Cfg Window)

/-- The contraction record of the body's matrix product. -/
abbrev D : DotDims S10000x32 S32x8 S10000x8 := dot_S10000x32_S32x8_S10000x8_1_0_0_1_n_n

theorem lhs_0 (j : S10000x8.Idx) (q : D.contr.Idx) : (D.lhsIdx j q 0).val = (j 0).val := by
  unfold DotDims.lhsIdx
  rw [dif_neg (show ¬(0 : Fin S10000x32.rank) ∈ D.lhsBatch by decide), dif_pos (show (0 : Fin S10000x32.rank) ∈ D.lhsNonContracting by decide)]
  rfl
theorem lhs_1 (j : S10000x8.Idx) (q : D.contr.Idx) : (D.lhsIdx j q 1).val = (q ⟨0, by decide⟩).val :=
  D.lhsIdx_val_of_single rfl j q
theorem rhs_0 (j : S10000x8.Idx) (q : D.contr.Idx) : (D.rhsIdx j q 0).val = (q ⟨0, by decide⟩).val :=
  D.rhsIdx_val_of_single rfl j q
theorem rhs_1 (j : S10000x8.Idx) (q : D.contr.Idx) : (D.rhsIdx j q 1).val = (j 1).val := by
  unfold DotDims.rhsIdx
  rw [dif_neg (show ¬(1 : Fin S32x8.rank) ∈ D.rhsBatch by decide), dif_pos (show (1 : Fin S32x8.rank) ∈ D.rhsNonContracting by decide)]
  rfl

/-- The matrix product into a zero accumulator, entry (p, q): the sum over the 32 shared coordinates. -/
theorem product_apply (l : FVec Ideal S10000x32 .bf16) (r : FVec Ideal S32x8 .bf16) (p : Fin 10000) (q : Fin 8) :
    matmul D none l r (constant S10000x8 .f32 0x00000000#32) (ix2 p q) = ∑ k : Fin 32, l (ix2 p k) * r (ix2 k q) := by
  simp only [matmul]
  rw [Ideal.matmul_constant_zero_apply, ← Equiv.sum_comp (contrEquiv1 D 32 rfl rfl).symm]
  refine Finset.sum_congr rfl fun k _ => ?_
  have hk := contrEquiv1_symm_val D 32 rfl rfl k
  have el : D.lhsIdx (ix2 p q) ((contrEquiv1 D 32 rfl rfl).symm k) = ix2 p k := funext fun a => Fin.ext (by
    match a with
    | ⟨0, _⟩ => exact lhs_0 _ _
    | ⟨1, _⟩ => exact (lhs_1 _ _).trans hk)
  have er : D.rhsIdx (ix2 p q) ((contrEquiv1 D 32 rfl rfl).symm k) = ix2 k q := funext fun a => Fin.ext (by
    match a with
    | ⟨0, _⟩ => exact (rhs_0 _ _).trans hk
    | ⟨1, _⟩ => exact rhs_1 _ _)
  rw [el, er]

/-- What the body stores, entry (p, q): the rectified row of the block times the column of the weights, plus the bias entry. -/
theorem stored_apply (x0 : Vec Ideal S10000x32 .f32) (x1 : Vec Ideal S32x8 .f32) (x2 : Vec Ideal S1x8 .f32) (p : Fin 10000) (q : Fin 8) :
    k1_pay1 (F := Ideal) x0 x1 x2 (ix2 p q) = (∑ k : Fin 32, max (x0 (ix2 p k)) 0 * x1 (ix2 k q)) + x2 (ix2 (0 : Fin 1) q) := by
  unfold k1_pay1
  rw [addf_apply, shapeCast_self, shapeCast_self, shapeCast_self]
  refine congrArg₂ (· + ·) ?_ ?_
  · refine (product_apply _ _ p q).trans (Finset.sum_congr rfl fun k _ => ?_)
    show max (x0 (ix2 p k)) (Ideal.ofBits .f32 0x00000000#32) * x1 (ix2 k q) = _
    rw [Ideal.ofBits_zero_f32]
  · exact broadcastTo_1b_ab_apply x2 _ p q

/-! ## From the ten blocks to the whole array -/

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at grid point `t`: the node rows move with `t`, the weights and the bias stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 ∧ t.val < 10 :=
  (by decide +kernel : ∀ t : Fin grid1.N, _)

/-- The absolute row of row `p` of block `t`. -/
def row (t : Fin cfg1.N) (p : Fin 10000) : Fin 100000 :=
  ⟨t.val * 10000 + p.val, by have := (idx_facts t).2.2.2.2.2.2.2.2; have := p.isLt; omega⟩

/-- What the region's output array holds after the run, from the three arrays the region reads. -/
def G (a0 : S100000x32.Idx → Elt Ideal .f32) (a1 : S32x8.Idx → Elt Ideal .f32) (a2 : S1x8.Idx → Elt Ideal .f32) :
    S100000x8.Idx → Elt Ideal .f32 :=
  fun i => (∑ k : Fin 32, max (a0 (ix2 (i 0) k)) 0 * a1 (ix2 k (i 1))) + a2 (ix2 (0 : Fin 1) (i 1))

theorem emb_x (t : Fin cfg1.N) (p : Fin 10000) (k : Fin 32) :
    ((cfg1.win 0).blk t).view.emb (ix2 p k) = ix2 (row t p) k := by
  obtain ⟨e0, e1, -⟩ := idx_facts t
  funext a; apply Fin.ext
  match a with
  | ⟨0, _⟩ => show win1_0.index t (0 : Fin 2) * 10000 + 1 * p.val = t.val * 10000 + p.val; omega
  | ⟨1, _⟩ => show win1_0.index t (1 : Fin 2) * 32 + 1 * k.val = k.val; omega

theorem emb_w (t : Fin cfg1.N) (k : Fin 32) (q : Fin 8) :
    ((cfg1.win 1).blk t).view.emb (ix2 k q) = ix2 k q := by
  obtain ⟨-, -, e0, e1, -⟩ := idx_facts t
  funext a; apply Fin.ext
  match a with
  | ⟨0, _⟩ => show win1_1.index t (0 : Fin 2) * 32 + 1 * k.val = k.val; omega
  | ⟨1, _⟩ => show win1_1.index t (1 : Fin 2) * 8 + 1 * q.val = q.val; omega

theorem emb_b (t : Fin cfg1.N) (q : Fin 8) :
    ((cfg1.win 2).blk t).view.emb (ix2 (0 : Fin 1) q) = ix2 (0 : Fin 1) q := by
  obtain ⟨-, -, -, -, e0, e1, -⟩ := idx_facts t
  funext a; apply Fin.ext
  match a with
  | ⟨0, _⟩ => show win1_2.index t (0 : Fin 2) * 1 + 1 * 0 = 0; omega
  | ⟨1, _⟩ => show win1_2.index t (1 : Fin 2) * 8 + 1 * q.val = q.val; omega

theorem emb_o (t : Fin cfg1.N) (p : Fin 10000) (q : Fin 8) :
    ((cfg1.win 3).blk t).view.emb (ix2 p q) = ix2 (row t p) q := by
  obtain ⟨-, -, -, -, -, -, e0, e1, -⟩ := idx_facts t
  funext a; apply Fin.ext
  match a with
  | ⟨0, _⟩ => show win1_3.index t (0 : Fin 2) * 10000 + 1 * p.val = t.val * 10000 + p.val; omega
  | ⟨1, _⟩ => show win1_3.index t (1 : Fin 2) * 8 + 1 * q.val = q.val; omega

/-- Entry (p, q) of block `t`, read through the windows, is `G` at the absolute row. -/
theorem block_entry (X : S100000x32.Idx → EReal) (Wt : S32x8.Idx → EReal) (B : S1x8.Idx → EReal)
    (t : Fin cfg1.N) (p : Fin 10000) (q : Fin 8) :
    (∑ k : Fin 32, max (X (((cfg1.win 0).blk t).view.emb (ix2 p k))) 0 * Wt (((cfg1.win 1).blk t).view.emb (ix2 k q)))
      + B (((cfg1.win 2).blk t).view.emb (ix2 (0 : Fin 1) q))
    = G X Wt B (((cfg1.win 3).blk t).view.emb (ix2 p q)) := by
  rw [emb_o, emb_b]
  show _ = (∑ k : Fin 32, max (X (ix2 (row t p) k)) 0 * Wt (ix2 k q)) + B (ix2 (0 : Fin 1) q)
  refine congrArg₂ (· + ·) (Finset.sum_congr rfl fun k _ => ?_) rfl
  rw [emb_x, emb_w]

/-- What grid point `t` writes back is block `t` of `G` of the arrays as the region finds them. -/
theorem flushed_eq (c : Dev nD) (t : Fin cfg1.N) :
    (dat1 V c).flushed 3 t = ((cfg1.win 3).blk t).view.read (Elt Ideal) (G (V c main_v46) (V c main_v47) (V c main_v48)) := by
  show (cfg1.win 3).cut (grid1.coords t) ((dat1 V c).after 3 t) = _
  rw [after1_3]
  unfold out1_3
  rw [View.canon_unit_zero hz]
  simp only [View.ld_unit_zero (S := S10000x32) hz, View.ld_unit_zero (S := S32x8) hz, View.ld_unit_zero (S := S1x8) hz]
  funext j
  obtain ⟨p, q, rfl⟩ : ∃ (p : Fin 10000) (q : Fin 8), j = ix2 p q := ⟨j 0, j 1, eq_ix2 j⟩
  refine (stored_apply (iblk1 V c 0 t) (iblk1 V c 1 t) (iblk1 V c 2 t) p q).trans ?_
  exact block_entry (V c main_v46) (V c main_v47) (V c main_v48) t p q

/-- An index of the output array is in block `t` iff each coordinate is in the block's range on its axis. -/
theorem mem_blk (t : Fin cfg1.N) (i : S100000x8.Idx) :
    i ∈ ((cfg1.win 3).blk t).view.set ↔ ∀ a : Fin 2, win1_3.index t a * S10000x8.size a ≤ (i a).val ∧ (i a).val < win1_3.index t a * S10000x8.size a + S10000x8.size a := by
  show i ∈ ((View.whole main_v49).slice (win1_3.rect t)).set ↔ _
  rw [View.set_slice_whole, Rect.mem_set_unit]
  exact Iff.rfl

/-- Every row lies in the block of its quotient by 10000. -/
theorem cover (i : S100000x8.Idx) : ∃ t : Fin cfg1.N, (cfg1.win 3).flush t = true ∧ i ∈ ((cfg1.win 3).blk t).view.set := by
  have hi0 : (i 0).val < 100000 := (i 0).isLt
  have hi1 : (i 1).val < 8 := (i 1).isLt
  have hN : cfg1.N = 10 := N_1
  obtain ⟨t, ht⟩ : ∃ t : Fin cfg1.N, t.val = (i 0).val / 10000 := ⟨⟨(i 0).val / 10000, by omega⟩, rfl⟩
  obtain ⟨-, -, -, -, -, -, e0, e1, -⟩ := idx_facts t
  refine ⟨t, flush1_3 t, ?_⟩
  rw [mem_blk]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 8 ≤ (i 1).val ∧ (i 1).val < win1_3.index t (1 : Fin 2) * 8 + 8; omega

/-- The output array after the region: `G` of the three arrays the region reads, on every row. -/
theorem final (c : Dev nD) : (dat1 V c).arrAt 3 cfg1.N = G (V c main_v46) (V c main_v47) (V c main_v48) :=
  (dat1 V c).arrAt_eq_of_cover 3 _ (fun t _ => flushed_eq V c t) cover

end Cert.KernelIdeal.SecondLayer

end
-- ==== Proof.Spec.lean ====
/-
  The mathematics of the two-layer graph convolution head, as functions on arrays of extended reals.

  A dense layer sends a matrix `x` (N × K), a weight matrix already transposed `wt` (K × M) and a bias vector `b` (M)
  to the matrix whose entry (r, j) is the inner product of row r of `x` with column j of `wt`, plus `b j`.
  The rectifier clamps every entry below at zero. The row-wise log-softmax of a matrix `a` (N × W) subtracts from every
  entry the maximum `m r` of its row, and then the logarithm of the row's sum of exponentials of the shifted entries.
  The head multiplies the eight log-softmax entries of a row with the first eight weights, adds the ninth weight
  times the row's extra feature and the bias, and clamps at zero.
-/
import Idealize.ShloMosaic.PureOps.Ideal
import Idealize.ShloMosaic.PureOps.Ideal.Laws
import Idealize.ShloMosaic.Lib.ValueIdx

noncomputable section

namespace Cert.GcnSpec

open Idealize.ShloMosaic Idealize.ShloMosaic.ValueIdx

/-- A matrix of extended reals. -/
abbrev Mat (a b : Nat) : Type := (⟨2, ![a, b]⟩ : Shape).Idx → EReal
/-- A vector of extended reals. -/
abbrev Vect (a : Nat) : Type := (⟨1, ![a]⟩ : Shape).Idx → EReal

/-- Entry (r, j) of `x · wt + b`: the sum over the K shared coordinates of `x r k · wt k j`, plus `b j`. -/
def dense {N K M : Nat} (x : Mat N K) (wt : Mat K M) (b : Vect M) : Mat N M :=
  fun i => (∑ k : Fin K, x (ix2 (i 0) k) * wt (ix2 k (i 1))) + b (ix1 (i 1))

/-- The rectifier, entry by entry: `max (x i) 0`. -/
def relu {s : Shape} (x : s.Idx → EReal) : s.Idx → EReal := fun i => max (x i) 0

/-- The maximum of row `r`: the fold of `max` over the row's W entries, from the bottom element. -/
def rowMax {N W : Nat} (a : Mat N W) (r : Fin N) : EReal :=
  (Finset.univ : Finset (Fin W)).fold max ⊥ (fun k => a (ix2 r k))

/-- The sum over row `r` of the exponentials of the entries shifted down by the row's maximum. -/
def rowExpSum {N W : Nat} (a : Mat N W) (r : Fin N) : EReal :=
  ∑ k : Fin W, Ideal.exp (a (ix2 r k) - rowMax a r)

/-- Row-wise log-softmax: `(a r j − max_r) − log Σ_k exp (a r k − max_r)`. -/
def logSoftmax {N W : Nat} (a : Mat N W) : Mat N W :=
  fun i => (a (ix2 (i 0) (i 1)) - rowMax a (i 0)) - Ideal.log (rowExpSum a (i 0))

/-- The head: `max (Σ_{k<8} e r k · w 0 k + f r 0 · w 0 8 + b 0) 0`. -/
def head {N : Nat} (e : Mat N 8) (f : Mat N 1) (w : Mat 1 9) (b : Vect 1) : Mat N 1 :=
  fun i => max ((∑ k : Fin 8, e (ix2 (i 0) k) * w (ix2 0 k.castSucc)) + f (ix2 (i 0) 0) * w (ix2 0 (Fin.last 8)) + b (ix1 0)) 0

/-- The log-softmax is row-local: if row `p` of `v` is row `R` of `A`, entry by entry, the two log-softmax rows agree. -/
theorem logSoftmax_row {N N' W : Nat} (A : Mat N W) (v : Mat N' W) (R : Fin N) (p : Fin N')
    (h : ∀ k : Fin W, v (ix2 p k) = A (ix2 R k)) (j : Fin W) : logSoftmax v (ix2 p j) = logSoftmax A (ix2 R j) := by
  have hm : rowMax v p = rowMax A R := by
    unfold rowMax; exact congrArg (fun f => Finset.fold max ⊥ f Finset.univ) (funext h)
  have hs : rowExpSum v p = rowExpSum A R := by
    unfold rowExpSum; rw [hm]; exact Finset.sum_congr rfl fun k _ => by rw [h k]
  show (v (ix2 p j) - rowMax v p) - Ideal.log (rowExpSum v p) = (A (ix2 R j) - rowMax A R) - Ideal.log (rowExpSum A R)
  rw [hm, hs, h j]

end Cert.GcnSpec

end
-- ==== Proof.SoftmaxHead.lean ====
/-
  The last chip kernel: the row-wise log-softmax of the aggregated 8-wide features, and the head. The aggregated matrix
  (100000 × 8) and the extra feature column (100000 × 1) are cut into ten blocks of 10000 rows. At block `t` the body
  takes each row's maximum, subtracts it, sums the exponentials of the shifted row, and subtracts that sum's logarithm:
  the block's log-softmax, written back as rows `10000·t …` of the embedding. From it the body forms, per row, the sum
  of the eight entries times the first eight weights, adds the extra feature times the ninth weight and the bias, and
  clamps at zero: written back as rows `10000·t …` of the output column. Both are row-local: a row of a block is a row
  of the whole matrix, so the arrays after the ten write-backs are the log-softmax and the head of the whole matrices.
-/
import proofs.«152048_j65025804862040_1_alg».proof.Proof.Gen.KernelIdeal.Frame
import proofs.«152048_j65025804862040_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.SoftmaxHead

open Cert.KernelIdeal Cert.KernelIdeal.Gen Idealize.ShloMosaic Idealize.ShloMosaic.TcCoe Idealize.SL.Sem
open Idealize.ShloMosaic.ValueIdx Cert.GcnSpec
open Idealize.ShloMosaic.Pipeline (Dat Cfg Window)

/-! ## The layout operations of the body, read at an index -/

/-- A column `[a, 1]` broadcast to `[a, b]` reads, at `(p, j)`, the column at `p`. -/
theorem col_bcast {α : Type} {a b : ℕ} (v : (⟨2, ![a, 1]⟩ : Shape).Idx → α) (h : (⟨2, ![a, 1]⟩ : Shape).Broadcasts ⟨2, ![a, b]⟩)
    (p : Fin a) (j : Fin b) : broadcastTo ⟨2, ![a, b]⟩ v h (ix2 p j) = v (ix2 p (0 : Fin 1)) := by
  refine broadcastTo_apply v h (ix2 p j) (ix2 p (0 : Fin 1)) fun ax => ?_
  match ax with
  | ⟨0, _⟩ =>
    show p.val = if a = 1 then 0 else p.val
    split
    · have := p.isLt; omega
    · rfl
  | ⟨1, _⟩ => rfl

/-- A vector `[a]` cast to a column `[a, 1]` reads, at `(p, u)`, the vector at `p`. -/
theorem col_cast {α : Type} {a : ℕ} (v : (⟨1, ![a]⟩ : Shape).Idx → α) (h : (⟨1, ![a]⟩ : Shape).ShapeCasts ⟨2, ![a, 1]⟩)
    (p : Fin a) (u : Fin 1) : shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    omega)

/-- The pattern of minus infinity denotes the bottom element. -/
theorem neg_inf : Ideal.ofBits .f32 0xFF800000#32 = ⊥ := by simp [Ideal.ofBits, Ideal.ieee]

/-- A row maximum taken over the lanes, read at row `p`: the fold of `max` over the row's eight entries from the bottom. -/
theorem rowmax_apply (v : FVec Ideal S10000x8 .f32) (h : S10000x8.Reduces [1] S10000) (hφ : FKind.Formats .f32)
    (hacc : (0xFF800000#32 : BitVec 32) = 0xFF800000#32) (p : Fin 10000) :
    multiReduction .maximumf [1] S10000 v 0xFF800000#32 h hφ hacc (ix1 p) = rowMax v p := by
  refine (Ideal.multiReduction_maximumf_single v 0xFF800000#32 h hφ hacc (ix1 p)).trans ?_
  show Finset.fold max (Ideal.ofBits .f32 0xFF800000#32) (fun k : Fin 8 => v (h.lift (ix1 p) k)) Finset.univ = _
  rw [neg_inf]
  unfold rowMax
  refine congrArg (fun f => Finset.fold max ⊥ f Finset.univ) (funext fun k => congrArg v (funext fun a => Fin.ext ?_))
  match a with
  | ⟨0, _⟩ => rfl
  | ⟨1, _⟩ => rfl

/-- A row sum taken over the lanes, read at row `p`: the sum of the row's eight entries. -/
theorem rowsum_apply (v : FVec Ideal S10000x8 .f32) (h : S10000x8.Reduces [1] S10000) (hφ : FKind.Formats .f32)
    (hacc : (0x00000000#32 : BitVec 32) = 0x00000000#32) (p : Fin 10000) :
    multiReduction .add [1] S10000 v 0x00000000#32 h hφ hacc (ix1 p) = ∑ k : Fin 8, v (ix2 p k) := by
  refine (Ideal.multiReduction_add_single v 0x00000000#32 h hφ hacc (ix1 p)).trans ?_
  show ∑ k : Fin 8, v (h.lift (ix1 p) k) = _
  refine Finset.sum_congr rfl fun k _ => congrArg v (funext fun a => Fin.ext ?_)
  match a with
  | ⟨0, _⟩ => rfl
  | ⟨1, _⟩ => rfl

/-! ## What the body stores -/

/-- An entry shifted down by its row's maximum. -/
theorem shifted_apply (v0 : Vec Ideal S10000x8 .f32) (p : Fin 10000) (j : Fin 8) (h : S10000x8.Reduces [1] S10000) (hφ : FKind.Formats .f32)
    (hacc : (0xFF800000#32 : BitVec 32) = 0xFF800000#32) (hc : S10000.ShapeCasts S10000x1) (hb : S10000x1.Broadcasts S10000x8) :
    subf (F := Ideal) v0 (broadcastTo S10000x8 (shapeCast S10000x1 (multiReduction (F := Ideal) .maximumf [1] S10000 v0 0xFF800000#32 h hφ hacc) hc) hb) (ix2 p j)
      = v0 (ix2 p j) - rowMax v0 p :=
  congrArg₂ (· - ·) rfl ((col_bcast _ hb p j).trans ((col_cast _ hc p 0).trans (rowmax_apply v0 h hφ hacc p)))

/-- The embedding block: the log-softmax of the block, entry by entry. -/
theorem emb_apply (v0 : Vec Ideal S10000x8 .f32) (p : Fin 10000) (j : Fin 8) :
    k2_pay1 (F := Ideal) v0 (ix2 p j) = logSoftmax v0 (ix2 p j) := by
  unfold k2_pay1
  rw [shapeCast_self]
  show _ = (v0 (ix2 p j) - rowMax v0 p) - Ideal.log (rowExpSum v0 p)
  refine congrArg₂ (· - ·) (shifted_apply v0 p j _ _ _ _ _) ?_
  refine (col_bcast _ _ p j).trans ?_
  refine congrArg Ideal.log ?_
  refine (col_cast _ _ p 0).trans ?_
  refine (rowsum_apply _ _ _ _ p).trans ?_
  unfold rowExpSum
  refine Finset.sum_congr rfl fun k _ => ?_
  exact congrArg Ideal.exp (shifted_apply v0 p k _ _ _ _ _)

/-- The head block, row `p`: the eight log-softmax entries against the first eight weights, the extra feature against the
    ninth, the bias, clamped at zero. -/
theorem head_apply (v0 : Vec Ideal S10000x8 .f32) (v13 : Vec Ideal S1x9 .f32) (v20 : Vec Ideal S10000x1 .f32) (v24 : Vec Ideal S1x1 .f32)
    (p : Fin 10000) :
    k2_pay2 (F := Ideal) v0 v13 v20 v24 (ix2 p (0 : Fin 1))
      = max ((∑ k : Fin 8, logSoftmax v0 (ix2 p k) * v13 (ix2 (0 : Fin 1) k.castSucc))
          + v20 (ix2 p (0 : Fin 1)) * v13 (ix2 (0 : Fin 1) (Fin.last 8)) + v24 (ix2 (0 : Fin 1) (0 : Fin 1))) 0 := by
  unfold k2_pay2
  rw [shapeCast_self]
  refine congrArg₂ max ?_ Ideal.ofBits_zero_f32
  refine congrArg₂ (· + ·) (congrArg₂ (· + ·) ?_ ?_) ?_
  · refine (col_cast _ _ p 0).trans ((rowsum_apply _ _ _ _ p).trans (Finset.sum_congr rfl fun k _ => ?_))
    exact congrArg₂ (· * ·) (emb_apply v0 p k)
      ((broadcastTo_1b_ab_apply _ _ p k).trans (slice2_axis1_apply 0 v13 _ 0 k k.castSucc (by simp)))
  · exact congrArg₂ (· * ·) rfl
      ((broadcastTo_1b_ab_apply _ _ p 0).trans (slice2_axis1_apply 8 v13 _ 0 0 (Fin.last 8) (by simp)))
  · exact broadcastTo_1b_ab_apply _ _ p 0

/-! ## From the ten blocks to the whole arrays -/

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at grid point `t`: the row blocks move with `t`, the weights and the bias stay. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 ∧ t.val < 10 :=
  (by decide +kernel : ∀ t : Fin grid2.N, _)

/-- The absolute row of row `p` of block `t`. -/
def row (t : Fin cfg2.N) (p : Fin 10000) : Fin 100000 :=
  ⟨t.val * 10000 + p.val, by have := (idx_facts t).2.2.2.2.2.2.2.2.2.2.2.2; have := p.isLt; omega⟩

/-- The head of the whole matrices, with the bias as the region finds it (a 1 × 1 array). -/
def H (a : S100000x8.Idx → Elt Ideal .f32) (f : S100000x1.Idx → Elt Ideal .f32) (w : S1x9.Idx → Elt Ideal .f32)
    (b : S1x1.Idx → Elt Ideal .f32) : S100000x1.Idx → Elt Ideal .f32 :=
  fun i => max ((∑ k : Fin 8, logSoftmax a (ix2 (i 0) k) * w (ix2 (0 : Fin 1) k.castSucc))
      + f (ix2 (i 0) (0 : Fin 1)) * w (ix2 (0 : Fin 1) (Fin.last 8)) + b (ix2 (0 : Fin 1) (0 : Fin 1))) 0

theorem emb_a (t : Fin cfg2.N) (p : Fin 10000) (k : Fin 8) :
    ((cfg2.win 0).blk t).view.emb (ix2 p k) = ix2 (row t p) k := by
  obtain ⟨e0, e1, -⟩ := idx_facts t
  funext a; apply Fin.ext
  match a with
  | ⟨0, _⟩ => show win2_0.index t (0 : Fin 2) * 10000 + 1 * p.val = t.val * 10000 + p.val; omega
  | ⟨1, _⟩ => show win2_0.index t (1 : Fin 2) * 8 + 1 * k.val = k.val; omega

theorem emb_f (t : Fin cfg2.N) (p : Fin 10000) :
    ((cfg2.win 1).blk t).view.emb (ix2 p (0 : Fin 1)) = ix2 (row t p) (0 : Fin 1) := by
  obtain ⟨-, -, e0, e1, -⟩ := idx_facts t
  funext a; apply Fin.ext
  match a with
  | ⟨0, _⟩ => show win2_1.index t (0 : Fin 2) * 10000 + 1 * p.val = t.val * 10000 + p.val; omega
  | ⟨1, _⟩ => show win2_1.index t (1 : Fin 2) * 1 + 1 * 0 = 0; omega

theorem emb_w (t : Fin cfg2.N) (k : Fin 9) :
    ((cfg2.win 2).blk t).view.emb (ix2 (0 : Fin 1) k) = ix2 (0 : Fin 1) k := by
  obtain ⟨-, -, -, -, e0, e1, -⟩ := idx_facts t
  funext a; apply Fin.ext
  match a with
  | ⟨0, _⟩ => show win2_2.index t (0 : Fin 2) * 1 + 1 * 0 = 0; omega
  | ⟨1, _⟩ => show win2_2.index t (1 : Fin 2) * 9 + 1 * k.val = k.val; omega

theorem emb_b (t : Fin cfg2.N) :
    ((cfg2.win 3).blk t).view.emb (ix2 (0 : Fin 1) (0 : Fin 1)) = ix2 (0 : Fin 1) (0 : Fin 1) := by
  obtain ⟨-, -, -, -, -, -, e0, e1, -⟩ := idx_facts t
  funext a; apply Fin.ext
  match a with
  | ⟨0, _⟩ => show win2_3.index t (0 : Fin 2) * 1 + 1 * 0 = 0; omega
  | ⟨1, _⟩ => show win2_3.index t (1 : Fin 2) * 1 + 1 * 0 = 0; omega

theorem emb_e (t : Fin cfg2.N) (p : Fin 10000) (k : Fin 8) :
    ((cfg2.win 4).blk t).view.emb (ix2 p k) = ix2 (row t p) k := by
  obtain ⟨-, -, -, -, -, -, -, -, e0, e1, -⟩ := idx_facts t
  funext a; apply Fin.ext
  match a with
  | ⟨0, _⟩ => show win2_4.index t (0 : Fin 2) * 10000 + 1 * p.val = t.val * 10000 + p.val; omega
  | ⟨1, _⟩ => show win2_4.index t (1 : Fin 2) * 8 + 1 * k.val = k.val; omega

theorem emb_o (t : Fin cfg2.N) (p : Fin 10000) :
    ((cfg2.win 5).blk t).view.emb (ix2 p (0 : Fin 1)) = ix2 (row t p) (0 : Fin 1) := by
  obtain ⟨-, -, -, -, -, -, -, -, -, -, e0, e1, -⟩ := idx_facts t
  funext a; apply Fin.ext
  match a with
  | ⟨0, _⟩ => show win2_5.index t (0 : Fin 2) * 10000 + 1 * p.val = t.val * 10000 + p.val; omega
  | ⟨1, _⟩ => show win2_5.index t (1 : Fin 2) * 1 + 1 * 0 = 0; omega

/-- The log-softmax of block `t` of `A`, at (p, j), is the log-softmax of `A` at the absolute row. -/
theorem emb_block_entry (A : S100000x8.Idx → EReal) (t : Fin cfg2.N) (p : Fin 10000) (j : Fin 8) :
    logSoftmax (N := 10000) (W := 8) (fun y => A (((cfg2.win 0).blk t).view.emb y)) (ix2 p j)
      = logSoftmax (N := 100000) (W := 8) A (((cfg2.win 4).blk t).view.emb (ix2 p j)) := by
  rw [emb_e]
  exact logSoftmax_row A _ (row t p) p (fun k => congrArg A (emb_a t p k)) j

/-- The head of block `t`, at row p, is the head of the whole matrices at the absolute row. -/
theorem head_block_entry (A : S100000x8.Idx → EReal) (Fx : S100000x1.Idx → EReal) (Wv : S1x9.Idx → EReal) (B : S1x1.Idx → EReal)
    (t : Fin cfg2.N) (p : Fin 10000) :
    max ((∑ k : Fin 8, logSoftmax (N := 10000) (W := 8) (fun y => A (((cfg2.win 0).blk t).view.emb y)) (ix2 p k)
            * Wv (((cfg2.win 2).blk t).view.emb (ix2 (0 : Fin 1) k.castSucc)))
        + Fx (((cfg2.win 1).blk t).view.emb (ix2 p (0 : Fin 1))) * Wv (((cfg2.win 2).blk t).view.emb (ix2 (0 : Fin 1) (Fin.last 8)))
        + B (((cfg2.win 3).blk t).view.emb (ix2 (0 : Fin 1) (0 : Fin 1)))) 0
      = H A Fx Wv B (((cfg2.win 5).blk t).view.emb (ix2 p (0 : Fin 1))) := by
  rw [emb_o, emb_f, emb_b, emb_w]
  show _ = max ((∑ k : Fin 8, logSoftmax A (ix2 (row t p) k) * Wv (ix2 (0 : Fin 1) k.castSucc))
      + Fx (ix2 (row t p) (0 : Fin 1)) * Wv (ix2 (0 : Fin 1) (Fin.last 8)) + B (ix2 (0 : Fin 1) (0 : Fin 1))) 0
  refine congrArg (fun s => max (s + _ + _) 0) (Finset.sum_congr rfl fun k _ => ?_)
  rw [emb_w]
  exact congrArg (· * _) (logSoftmax_row A _ (row t p) p (fun k' => congrArg A (emb_a t p k')) k)

/-- What grid point `t` writes back to the embedding is block `t` of the log-softmax of the aggregated matrix. -/
theorem flushed_emb (c : Dev nD) (t : Fin cfg2.N) :
    (dat2 V c).flushed 4 t = ((cfg2.win 4).blk t).view.read (Elt Ideal) (logSoftmax (N := 100000) (W := 8) (V c main_v83)) := by
  show (cfg2.win 4).cut (grid2.coords t) ((dat2 V c).after 4 t) = _
  rw [after2_4]
  unfold out2_4
  rw [View.canon_unit_zero hz]
  simp only [View.ld_unit_zero (S := S10000x8) hz]
  funext j
  obtain ⟨p, q, rfl⟩ : ∃ (p : Fin 10000) (q : Fin 8), j = ix2 p q := ⟨j 0, j 1, eq_ix2 j⟩
  refine (emb_apply (iblk2 V c 0 t) p q).trans ?_
  exact emb_block_entry (V c main_v83) t p q

/-- What grid point `t` writes back to the output column is block `t` of the head of the whole matrices. -/
theorem flushed_out (c : Dev nD) (t : Fin cfg2.N) :
    (dat2 V c).flushed 5 t = ((cfg2.win 5).blk t).view.read (Elt Ideal) (H (V c main_v83) (V c main_arg2) (V c main_arg7) (V c main_v84)) := by
  show (cfg2.win 5).cut (grid2.coords t) ((dat2 V c).after 5 t) = _
  rw [after2_5]
  unfold out2_5
  rw [View.canon_unit_zero hz]
  simp only [View.ld_unit_zero (S := S10000x8) hz, View.ld_unit_zero (S := S10000x1) hz, View.ld_unit_zero (S := S1x9) hz, View.ld_unit_zero (S := S1x1) hz]
  funext j
  obtain ⟨p, q, rfl⟩ : ∃ (p : Fin 10000) (q : Fin 1), j = ix2 p q := ⟨j 0, j 1, eq_ix2 j⟩
  obtain rfl : q = 0 := Subsingleton.elim _ _
  refine (head_apply (iblk2 V c 0 t) (iblk2 V c 2 t) (iblk2 V c 1 t) (iblk2 V c 3 t) p).trans ?_
  exact head_block_entry (V c main_v83) (V c main_arg2) (V c main_arg7) (V c main_v84) t p

theorem mem_blk_emb (t : Fin cfg2.N) (i : S100000x8.Idx) :
    i ∈ ((cfg2.win 4).blk t).view.set ↔ ∀ a : Fin 2, win2_4.index t a * S10000x8.size a ≤ (i a).val ∧ (i a).val < win2_4.index t a * S10000x8.size a + S10000x8.size a := by
  show i ∈ ((View.whole main_v85_0).slice (win2_4.rect t)).set ↔ _
  rw [View.set_slice_whole, Rect.mem_set_unit]
  exact Iff.rfl

theorem mem_blk_out (t : Fin cfg2.N) (i : S100000x1.Idx) :
    i ∈ ((cfg2.win 5).blk t).view.set ↔ ∀ a : Fin 2, win2_5.index t a * S10000x1.size a ≤ (i a).val ∧ (i a).val < win2_5.index t a * S10000x1.size a + S10000x1.size a := by
  show i ∈ ((View.whole main_v85_1).slice (win2_5.rect t)).set ↔ _
  rw [View.set_slice_whole, Rect.mem_set_unit]
  exact Iff.rfl

theorem cover_emb (i : S100000x8.Idx) : ∃ t : Fin cfg2.N, (cfg2.win 4).flush t = true ∧ i ∈ ((cfg2.win 4).blk t).view.set := by
  have hi0 : (i 0).val < 100000 := (i 0).isLt
  have hi1 : (i 1).val < 8 := (i 1).isLt
  have hN : cfg2.N = 10 := N_2
  obtain ⟨t, ht⟩ : ∃ t : Fin cfg2.N, t.val = (i 0).val / 10000 := ⟨⟨(i 0).val / 10000, by omega⟩, rfl⟩
  obtain ⟨-, -, -, -, -, -, -, -, e0, e1, -⟩ := idx_facts t
  refine ⟨t, flush2_4 t, ?_⟩
  rw [mem_blk_emb]
  intro a
  match a with
  | ⟨0, _⟩ => show win2_4.index t (0 : Fin 2) * 10000 ≤ (i 0).val ∧ (i 0).val < win2_4.index t (0 : Fin 2) * 10000 + 10000; omega
  | ⟨1, _⟩ => show win2_4.index t (1 : Fin 2) * 8 ≤ (i 1).val ∧ (i 1).val < win2_4.index t (1 : Fin 2) * 8 + 8; omega

theorem cover_out (i : S100000x1.Idx) : ∃ t : Fin cfg2.N, (cfg2.win 5).flush t = true ∧ i ∈ ((cfg2.win 5).blk t).view.set := by
  have hi0 : (i 0).val < 100000 := (i 0).isLt
  have hi1 : (i 1).val < 1 := (i 1).isLt
  have hN : cfg2.N = 10 := N_2
  obtain ⟨t, ht⟩ : ∃ t : Fin cfg2.N, t.val = (i 0).val / 10000 := ⟨⟨(i 0).val / 10000, by omega⟩, rfl⟩
  obtain ⟨-, -, -, -, -, -, -, -, -, -, e0, e1, -⟩ := idx_facts t
  refine ⟨t, flush2_5 t, ?_⟩
  rw [mem_blk_out]
  intro a
  match a with
  | ⟨0, _⟩ => show win2_5.index t (0 : Fin 2) * 10000 ≤ (i 0).val ∧ (i 0).val < win2_5.index t (0 : Fin 2) * 10000 + 10000; omega
  | ⟨1, _⟩ => show win2_5.index t (1 : Fin 2) * 1 ≤ (i 1).val ∧ (i 1).val < win2_5.index t (1 : Fin 2) * 1 + 1; omega

/-- The embedding after the region: the log-softmax of the aggregated matrix the region reads. -/
theorem final_emb (c : Dev nD) : (dat2 V c).arrAt 4 cfg2.N = logSoftmax (N := 100000) (W := 8) (V c main_v83) :=
  (dat2 V c).arrAt_eq_of_cover 4 _ (fun t _ => flushed_emb V c t) cover_emb

/-- The output column after the region: the head of the four arrays the region reads. -/
theorem final_out (c : Dev nD) : (dat2 V c).arrAt 5 cfg2.N = H (V c main_v83) (V c main_arg2) (V c main_arg7) (V c main_v84) :=
  (dat2 V c).arrAt_eq_of_cover 5 _ (fun t _ => flushed_out V c t) cover_out

end Cert.KernelIdeal.SoftmaxHead

end
-- ==== Proof.Aggregation.lean ====
/-
  One graph aggregation, as a function of the node features `h` and the edge list `e` alone. With the self-loops appended
  to `e`, every edge (s → d) carries the weight `deg(s)^(-1/2) · deg(d)^(-1/2)`, where `deg` counts a node's outgoing edges;
  the aggregation adds, into row `d` of a zero matrix, row `s` of `h` times that weight. Everything but the gathered
  rows depends on the edge list only, so the aggregation is the scatter-add of (weights · gathered rows of `h`).
  The reference's two aggregation stages are this function of its two dense layers' outputs.
-/
import proofs.«152048_j65025804862040_1_alg».proof.Proof.RefRead

noncomputable section

namespace Cert.Aggregation

open Cert.ReferenceIdeal Cert.ReferenceIdeal.Read Idealize.ShloMosaic

variable {F : FTy → Type} [FloatOps F]

/-- The aggregation of 32-wide node features over the edge list `e`. -/
def agg32 (h : (⟨S100000x32, .f32⟩ : BufTy).Contents (Elt F)) (e : (⟨S2x3200000, .i32⟩ : BufTy).Contents (Elt F)) :
    (⟨S100000x32, .f32⟩ : BufTy).Contents (Elt F) :=
  Host.scatterAdd scatter_S100000x32_S3300000x1_S3300000x32_1_0_0_1 (val_main_v46 (F := F)) (val_main_v47 (F := F) e)
    (mulf (val_main_v44 (F := F) e) (Host.gather gather_S100000x32_S3300000x1_S3300000x32_1_0_n_n_0_1_132 h (val_main_v42 (F := F) e)))

/-- The aggregation of 8-wide node features over the edge list `e`. -/
def agg8 (h : (⟨S100000x8, .f32⟩ : BufTy).Contents (Elt F)) (e : (⟨S2x3200000, .i32⟩ : BufTy).Contents (Elt F)) :
    (⟨S100000x8, .f32⟩ : BufTy).Contents (Elt F) :=
  Host.scatterAdd scatter_S100000x8_S3300000x1_S3300000x8_1_0_0_1 (val_main_v86 (F := F)) (val_main_v87 (F := F) e)
    (mulf (val_main_v84 (F := F) e) (Host.gather gather_S100000x8_S3300000x1_S3300000x8_1_0_n_n_0_1_18 h (val_main_v82 (F := F) e)))

/-- The reference's first aggregation stage is `agg32` of its first dense layer. -/
theorem ref_agg32 (x0 : (⟨S100000x128, .f32⟩ : BufTy).Contents (Elt F)) (x1 : (⟨S2x3200000, .i32⟩ : BufTy).Contents (Elt F))
    (x3 : (⟨S32x128, .f32⟩ : BufTy).Contents (Elt F)) (x4 : (⟨S32, .f32⟩ : BufTy).Contents (Elt F)) :
    val_main_v48 (F := F) x0 x1 x3 x4 = agg32 (val_main_v14 (F := F) x0 x3 x4) x1 := rfl

/-- The reference's second aggregation stage is `agg8` of its second dense layer. -/
theorem ref_agg8 (x0 : (⟨S100000x128, .f32⟩ : BufTy).Contents (Elt F)) (x1 : (⟨S2x3200000, .i32⟩ : BufTy).Contents (Elt F))
    (x3 : (⟨S32x128, .f32⟩ : BufTy).Contents (Elt F)) (x4 : (⟨S32, .f32⟩ : BufTy).Contents (Elt F))
    (x5 : (⟨S8x32, .f32⟩ : BufTy).Contents (Elt F)) (x6 : (⟨S8, .f32⟩ : BufTy).Contents (Elt F)) :
    val_main_v88 (F := F) x0 x1 x3 x4 x5 x6 = agg8 (val_main_v54 (F := F) x0 x1 x3 x4 x5 x6) x1 := rfl

end Cert.Aggregation

end
-- ==== Proof.Stretches.lean ====
/-
  The host stretches of the kernel's program, read as values. Before the first launch the host appends the self-loops
  to the edge list and splits it into sources and targets, transposes the first weight matrix and gives the first bias
  a unit axis. Between the first two launches it aggregates the first layer's output over the graph, transposes the
  second weight matrix and reshapes the second bias; between the last two it aggregates the second layer's output and
  reshapes the last bias. Each buffer a launch reads is therefore a named function of the launch memory and of the
  previous launch's output; the aggregations are the same functions the reference applies.
-/
import proofs.«152048_j65025804862040_1_alg».proof.Proof.Gen.KernelIdeal.Frame
import proofs.«152048_j65025804862040_1_alg».proof.Proof.Aggregation
import Idealize.ShloMosaic.Lib.StableHlo.Run

set_option maxRecDepth 16384

noncomputable section

namespace Cert.KernelIdeal.Stretches

open Cert.KernelIdeal Cert.KernelIdeal.Gen Idealize.ShloMosaic Idealize.ShloMosaic.TcCoe Idealize.SL.Sem Idealize.ShloMosaic.StableHlo
open Cert.ReferenceIdeal.Read Cert.Aggregation

variable (m : (ℓ : Loc nD τ sig) → Buf (Elt Ideal) ℓ) (ρ : Dev nD → PrngReg)

/-! ## Before the first launch -/

theorem nodes_1 (c : Dev nD) : V1 m ρ c main_arg0 = (m ((c : Thread nD τ).loc main_arg0)) :=
  (StableHlo.after_of_forall_not_mem (b := Proc.devRef .tc main_arg0) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem weights_1 (c : Dev nD) : V1 m ρ c main_v10 = val_main_v10 (F := Ideal) (m ((c : Thread nD τ).loc main_arg3)) := by
  show StableHlo.after hostOps0 (W0 m ρ c) (Proc.devRef .tc main_v10) = _
  after_results <;> rfl

theorem bias_1 (c : Dev nD) : V1 m ρ c main_v11 = shapeCast S1x32 (m ((c : Thread nD τ).loc main_arg4)) shapeCasts_S32_S1x32 := by
  show StableHlo.after hostOps0 (W0 m ρ c) (Proc.devRef .tc main_v11) = _
  after_results <;> rfl

theorem sources_1 (c : Dev nD) : W1 m ρ c (Proc.devRef .tc main_v7) = val_main_v7 (F := Ideal) (m ((c : Thread nD τ).loc main_arg1)) := by
  show StableHlo.after hostOps0 (W0 m ρ c) (Proc.devRef .tc main_v7) = _
  after_results <;> rfl

theorem targets_1 (c : Dev nD) : W1 m ρ c (Proc.devRef .tc main_v9) = val_main_v9 (F := Ideal) (m ((c : Thread nD τ).loc main_arg1)) := by
  show StableHlo.after hostOps0 (W0 m ρ c) (Proc.devRef .tc main_v9) = _
  after_results <;> rfl

/-- An argument the first stretch does not write is as launched. -/
theorem arg2_1 (c : Dev nD) : W1 m ρ c (Proc.devRef .tc main_arg2) = (m ((c : Thread nD τ).loc main_arg2)) :=
  (StableHlo.after_of_forall_not_mem (b := Proc.devRef .tc main_arg2) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
theorem arg5_1 (c : Dev nD) : W1 m ρ c (Proc.devRef .tc main_arg5) = (m ((c : Thread nD τ).loc main_arg5)) :=
  (StableHlo.after_of_forall_not_mem (b := Proc.devRef .tc main_arg5) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
theorem arg6_1 (c : Dev nD) : W1 m ρ c (Proc.devRef .tc main_arg6) = (m ((c : Thread nD τ).loc main_arg6)) :=
  (StableHlo.after_of_forall_not_mem (b := Proc.devRef .tc main_arg6) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
theorem arg7_1 (c : Dev nD) : W1 m ρ c (Proc.devRef .tc main_arg7) = (m ((c : Thread nD τ).loc main_arg7)) :=
  (StableHlo.after_of_forall_not_mem (b := Proc.devRef .tc main_arg7) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
theorem arg8_1 (c : Dev nD) : W1 m ρ c (Proc.devRef .tc main_arg8) = (m ((c : Thread nD τ).loc main_arg8)) :=
  (StableHlo.after_of_forall_not_mem (b := Proc.devRef .tc main_arg8) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-! ## Between the first two launches -/

theorem sources_2 (c : Dev nD) : W2 m ρ c (Proc.devRef .tc main_v7) = val_main_v7 (F := Ideal) (m ((c : Thread nD τ).loc main_arg1)) :=
  (W2_of_ne m ρ c main_v7 (by decide)).trans (sources_1 m ρ c)
theorem targets_2 (c : Dev nD) : W2 m ρ c (Proc.devRef .tc main_v9) = val_main_v9 (F := Ideal) (m ((c : Thread nD τ).loc main_arg1)) :=
  (W2_of_ne m ρ c main_v9 (by decide)).trans (targets_1 m ρ c)
theorem arg2_2 (c : Dev nD) : W2 m ρ c (Proc.devRef .tc main_arg2) = (m ((c : Thread nD τ).loc main_arg2)) :=
  (W2_of_ne m ρ c main_arg2 (by decide)).trans (arg2_1 m ρ c)
theorem arg5_2 (c : Dev nD) : W2 m ρ c (Proc.devRef .tc main_arg5) = (m ((c : Thread nD τ).loc main_arg5)) :=
  (W2_of_ne m ρ c main_arg5 (by decide)).trans (arg5_1 m ρ c)
theorem arg6_2 (c : Dev nD) : W2 m ρ c (Proc.devRef .tc main_arg6) = (m ((c : Thread nD τ).loc main_arg6)) :=
  (W2_of_ne m ρ c main_arg6 (by decide)).trans (arg6_1 m ρ c)
theorem arg7_2 (c : Dev nD) : W2 m ρ c (Proc.devRef .tc main_arg7) = (m ((c : Thread nD τ).loc main_arg7)) :=
  (W2_of_ne m ρ c main_arg7 (by decide)).trans (arg7_1 m ρ c)
theorem arg8_2 (c : Dev nD) : W2 m ρ c (Proc.devRef .tc main_arg8) = (m ((c : Thread nD τ).loc main_arg8)) :=
  (W2_of_ne m ρ c main_arg8 (by decide)).trans (arg8_1 m ρ c)

/-- The second launch reads the aggregation of the first launch's output. -/
theorem aggregated_2 (c : Dev nD) : V3 m ρ c main_v46 = agg32 (V2 m ρ c main_v12) (m ((c : Thread nD τ).loc main_arg1)) := by
  show StableHlo.after hostOps1 (W2 m ρ c) (Proc.devRef .tc main_v46) = _
  after_results_simp
  rw [sources_2, targets_2]
  rfl

theorem weights_2 (c : Dev nD) : V3 m ρ c main_v47 = val_main_v50 (F := Ideal) (m ((c : Thread nD τ).loc main_arg5)) := by
  show StableHlo.after hostOps1 (W2 m ρ c) (Proc.devRef .tc main_v47) = _
  after_results_simp
  rw [arg5_2]
  rfl

theorem bias_2 (c : Dev nD) : V3 m ρ c main_v48 = shapeCast S1x8 (m ((c : Thread nD τ).loc main_arg6)) shapeCasts_S8_S1x8 := by
  show StableHlo.after hostOps1 (W2 m ρ c) (Proc.devRef .tc main_v48) = _
  after_results_simp
  rw [arg6_2]
  rfl

/-! ## Between the last two launches -/

theorem sources_3 (c : Dev nD) : W3 m ρ c (Proc.devRef .tc main_v7) = val_main_v7 (F := Ideal) (m ((c : Thread nD τ).loc main_arg1)) :=
  (StableHlo.after_of_forall_not_mem (b := Proc.devRef .tc main_v7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (sources_2 m ρ c)
theorem targets_3 (c : Dev nD) : W3 m ρ c (Proc.devRef .tc main_v9) = val_main_v9 (F := Ideal) (m ((c : Thread nD τ).loc main_arg1)) :=
  (StableHlo.after_of_forall_not_mem (b := Proc.devRef .tc main_v9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (targets_2 m ρ c)
theorem arg2_3 (c : Dev nD) : W3 m ρ c (Proc.devRef .tc main_arg2) = (m ((c : Thread nD τ).loc main_arg2)) :=
  (StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (arg2_2 m ρ c)
theorem arg7_3 (c : Dev nD) : W3 m ρ c (Proc.devRef .tc main_arg7) = (m ((c : Thread nD τ).loc main_arg7)) :=
  (StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (arg7_2 m ρ c)
theorem arg8_3 (c : Dev nD) : W3 m ρ c (Proc.devRef .tc main_arg8) = (m ((c : Thread nD τ).loc main_arg8)) :=
  (StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (arg8_2 m ρ c)
theorem sources_4 (c : Dev nD) : W4 m ρ c (Proc.devRef .tc main_v7) = val_main_v7 (F := Ideal) (m ((c : Thread nD τ).loc main_arg1)) :=
  (W4_of_ne m ρ c main_v7 (by decide)).trans (sources_3 m ρ c)
theorem targets_4 (c : Dev nD) : W4 m ρ c (Proc.devRef .tc main_v9) = val_main_v9 (F := Ideal) (m ((c : Thread nD τ).loc main_arg1)) :=
  (W4_of_ne m ρ c main_v9 (by decide)).trans (targets_3 m ρ c)
theorem arg2_4 (c : Dev nD) : W4 m ρ c (Proc.devRef .tc main_arg2) = (m ((c : Thread nD τ).loc main_arg2)) :=
  (W4_of_ne m ρ c main_arg2 (by decide)).trans (arg2_3 m ρ c)
theorem arg7_4 (c : Dev nD) : W4 m ρ c (Proc.devRef .tc main_arg7) = (m ((c : Thread nD τ).loc main_arg7)) :=
  (W4_of_ne m ρ c main_arg7 (by decide)).trans (arg7_3 m ρ c)
theorem arg8_4 (c : Dev nD) : W4 m ρ c (Proc.devRef .tc main_arg8) = (m ((c : Thread nD τ).loc main_arg8)) :=
  (W4_of_ne m ρ c main_arg8 (by decide)).trans (arg8_3 m ρ c)

/-- The last launch reads the aggregation of the second launch's output. -/
theorem aggregated_3 (c : Dev nD) : V5 m ρ c main_v83 = agg8 (V4 m ρ c main_v49) (m ((c : Thread nD τ).loc main_arg1)) := by
  show StableHlo.after hostOps2 (W4 m ρ c) (Proc.devRef .tc main_v83) = _
  after_results_simp
  rw [sources_4, targets_4]
  rfl

theorem bias_3 (c : Dev nD) : V5 m ρ c main_v84 = shapeCast S1x1 (m ((c : Thread nD τ).loc main_arg8)) shapeCasts_S1_S1x1 := by
  show StableHlo.after hostOps2 (W4 m ρ c) (Proc.devRef .tc main_v84) = _
  after_results_simp
  rw [arg8_4]
  rfl

theorem feature_3 (c : Dev nD) : V5 m ρ c main_arg2 = (m ((c : Thread nD τ).loc main_arg2)) :=
  (StableHlo.after_of_forall_not_mem (b := Proc.devRef .tc main_arg2) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (arg2_4 m ρ c)
theorem weights_3 (c : Dev nD) : V5 m ρ c main_arg7 = (m ((c : Thread nD τ).loc main_arg7)) :=
  (StableHlo.after_of_forall_not_mem (b := Proc.devRef .tc main_arg7) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (arg7_4 m ρ c)

end Cert.KernelIdeal.Stretches

end
-- ==== Proof.Features.lean ====
/-
  What both programs take the log-softmax of: the second dense layer's output aggregated over the graph. From the node
  matrix `x`, the edge list `e`, and the two layers' weights and biases:
      features = aggregate (dense (rectify (aggregate (dense x W1ᵀ b1) e)) W2ᵀ b2) e.
  The transposes and the aggregations are kept as the named stages of the reference; both programs apply the same ones.
-/
import proofs.«152048_j65025804862040_1_alg».proof.Proof.Aggregation
import proofs.«152048_j65025804862040_1_alg».proof.Proof.Spec

noncomputable section

namespace Cert.Features

open Cert.ReferenceIdeal Cert.ReferenceIdeal.Read Cert.Aggregation Cert.GcnSpec Idealize.ShloMosaic

/-- The aggregated second-layer features, a 100000 × 8 matrix of extended reals. -/
def features (x : (⟨S100000x128, .f32⟩ : BufTy).Contents (Elt Ideal)) (e : (⟨S2x3200000, .i32⟩ : BufTy).Contents (Elt Ideal))
    (w1 : (⟨S32x128, .f32⟩ : BufTy).Contents (Elt Ideal)) (b1 : (⟨S32, .f32⟩ : BufTy).Contents (Elt Ideal))
    (w2 : (⟨S8x32, .f32⟩ : BufTy).Contents (Elt Ideal)) (b2 : (⟨S8, .f32⟩ : BufTy).Contents (Elt Ideal)) :
    (⟨S100000x8, .f32⟩ : BufTy).Contents (Elt Ideal) :=
  agg8 (dense (N := 100000) (K := 32) (M := 8)
      (relu (agg32 (dense (N := 100000) (K := 128) (M := 32) x (val_main_v10 (F := Ideal) w1) b1) e))
      (val_main_v50 (F := Ideal) w2) b2) e

end Cert.Features

end
-- ==== Proof.Results.lean ====
/-
  The kernel program's two results as functions of its arguments. Following the buffers through the three launches and
  the host stretches between them: the first launch leaves the first dense layer of the node matrix; the host aggregates
  it over the graph; the second launch leaves the dense layer of its rectified aggregate; the host aggregates that; the
  last launch leaves the row-wise log-softmax of the aggregate (the embedding) and its head (the output column). The
  biases reach the launches with a unit axis added, which an index does not see.
-/
import proofs.«152048_j65025804862040_1_alg».proof.Proof.FirstLayer
import proofs.«152048_j65025804862040_1_alg».proof.Proof.SecondLayer
import proofs.«152048_j65025804862040_1_alg».proof.Proof.SoftmaxHead
import proofs.«152048_j65025804862040_1_alg».proof.Proof.Stretches
import proofs.«152048_j65025804862040_1_alg».proof.Proof.Features

set_option maxRecDepth 16384

noncomputable section

namespace Cert.KernelIdeal.Results

open Cert.KernelIdeal Cert.KernelIdeal.Gen Idealize.ShloMosaic Idealize.ShloMosaic.TcCoe Idealize.SL.Sem
open Idealize.ShloMosaic.ValueIdx Cert.GcnSpec Cert.Aggregation Cert.Features Cert.ReferenceIdeal.Read

/-! ## A bias with a unit axis in front is the bias -/

theorem first_is_dense (X : Mat 100000 128) (Wt : Mat 128 32) (b : Vect 32) (h : S32.ShapeCasts S1x32) :
    FirstLayer.G X Wt (shapeCast S1x32 b h) = dense X Wt b := by
  funext i
  obtain ⟨r, j, rfl⟩ : ∃ (r : Fin 100000) (j : Fin 32), i = ix2 r j := ⟨i 0, i 1, eq_ix2 i⟩
  show (∑ k : Fin 128, X (ix2 r k) * Wt (ix2 k j)) + shapeCast S1x32 b h (ix2 (0 : Fin 1) j)
    = (∑ k : Fin 128, X (ix2 r k) * Wt (ix2 k j)) + b (ix1 j)
  rw [shapeCast_a_1a_apply]

theorem second_is_dense (A : Mat 100000 32) (Wt : Mat 32 8) (b : Vect 8) (h : S8.ShapeCasts S1x8) :
    SecondLayer.G A Wt (shapeCast S1x8 b h) = dense (relu A) Wt b := by
  funext i
  obtain ⟨r, j, rfl⟩ : ∃ (r : Fin 100000) (j : Fin 8), i = ix2 r j := ⟨i 0, i 1, eq_ix2 i⟩
  show (∑ k : Fin 32, max (A (ix2 r k)) 0 * Wt (ix2 k j)) + shapeCast S1x8 b h (ix2 (0 : Fin 1) j)
    = (∑ k : Fin 32, max (A (ix2 r k)) 0 * Wt (ix2 k j)) + b (ix1 j)
  rw [shapeCast_a_1a_apply]

theorem last_is_head (A : Mat 100000 8) (f : Mat 100000 1) (w : Mat 1 9) (b : Vect 1) (h : S1.ShapeCasts S1x1) :
    SoftmaxHead.H A f w (shapeCast S1x1 b h) = head (logSoftmax A) f w b := by
  funext i
  obtain ⟨r, u, rfl⟩ : ∃ (r : Fin 100000) (u : Fin 1), i = ix2 r u := ⟨i 0, i 1, eq_ix2 i⟩
  show max ((∑ k : Fin 8, logSoftmax A (ix2 r k) * w (ix2 (0 : Fin 1) k.castSucc))
      + f (ix2 r (0 : Fin 1)) * w (ix2 (0 : Fin 1) (Fin.last 8)) + shapeCast S1x1 b h (ix2 (0 : Fin 1) (0 : Fin 1))) 0
    = max ((∑ k : Fin 8, logSoftmax A (ix2 r k) * w (ix2 (0 : Fin 1) k.castSucc))
      + f (ix2 r (0 : Fin 1)) * w (ix2 (0 : Fin 1) (Fin.last 8)) + b (ix1 (0 : Fin 1))) 0
  rw [shapeCast_a_1a_apply]

/-! ## The buffers, launch by launch -/

variable (m : (ℓ : Loc nD τ sig) → Buf (Elt Ideal) ℓ) (ρ : Dev nD → PrngReg)

/-- After the first launch: the first dense layer of the node matrix. -/
theorem first (c : Dev nD) : V2 m ρ c main_v12
    = dense (N := 100000) (K := 128) (M := 32) (m ((c : Thread nD τ).loc main_arg0)) (val_main_v10 (F := Ideal) (m ((c : Thread nD τ).loc main_arg3))) (m ((c : Thread nD τ).loc main_arg4)) := by
  refine (W2_arr m ρ c 3).trans ?_
  rw [FirstLayer.final (V1 m ρ) c, Stretches.nodes_1, Stretches.weights_1, Stretches.bias_1]
  exact first_is_dense _ _ _ _

/-- After the second launch: the dense layer of the rectified first aggregate. -/
theorem second (c : Dev nD) : V4 m ρ c main_v49
    = dense (N := 100000) (K := 32) (M := 8)
        (relu (agg32 (dense (N := 100000) (K := 128) (M := 32) (m ((c : Thread nD τ).loc main_arg0)) (val_main_v10 (F := Ideal) (m ((c : Thread nD τ).loc main_arg3))) (m ((c : Thread nD τ).loc main_arg4))) (m ((c : Thread nD τ).loc main_arg1))))
        (val_main_v50 (F := Ideal) (m ((c : Thread nD τ).loc main_arg5))) (m ((c : Thread nD τ).loc main_arg6)) := by
  refine (W4_arr m ρ c 3).trans ?_
  rw [SecondLayer.final (V3 m ρ) c, Stretches.aggregated_2, Stretches.weights_2, Stretches.bias_2, first]
  exact second_is_dense _ _ _ _

/-- What the last launch reads: the aggregated second-layer features. -/
theorem third_input (c : Dev nD) : V5 m ρ c main_v83
    = features (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  rw [Stretches.aggregated_3, second]
  rfl

/-- The embedding the program returns: the log-softmax of the features. -/
theorem embedding (c : Dev nD) : W6 m ρ c (Proc.devRef .tc main_v85_0)
    = logSoftmax (N := 100000) (W := 8) (features (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) := by
  refine (W6_arr m ρ c 4).trans ?_
  rw [SoftmaxHead.final_emb (V5 m ρ) c, third_input]

/-- The output column the program returns: the head of the embedding. -/
theorem output (c : Dev nD) : W6 m ρ c (Proc.devRef .tc main_v85_1)
    = head (logSoftmax (N := 100000) (W := 8) (features (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))))
        (m ((c : Thread nD τ).loc main_arg2)) (m ((c : Thread nD τ).loc main_arg7)) (m ((c : Thread nD τ).loc main_arg8)) := by
  refine (W6_arr m ρ c 5).trans ?_
  rw [SoftmaxHead.final_out (V5 m ρ) c, third_input, Stretches.feature_3, Stretches.weights_3, Stretches.bias_3]
  exact last_is_head _ _ _ _ _

end Cert.KernelIdeal.Results

end
-- ==== Proof.RefRun.lean ====
/-
  The reference's run, read stage by stage. The reference is a straight line of 135 host operations; it is cut here into
  five stretches — the edge list and the first dense layer; the first aggregation, the rectifier and the second dense
  layer; the second aggregation; the row-wise log-softmax; the head — and after each stretch the few buffers the later
  stretches read are shown to hold the named stage of the argument arrays. So every weakly fair execution terminates,
  without a fault, with the two results at the stages `val_main_v96` and `val_main_v89` of the arguments, and the
  arguments unchanged.
-/
import proofs.«152048_j65025804862040_1_alg».proof.Proof.RefOps
import proofs.«152048_j65025804862040_1_alg».proof.Proof.RefRead

set_option maxRecDepth 16384

noncomputable section

namespace Cert.ReferenceIdeal.Staged

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

/-- Running one list of operations after another is running their concatenation. -/
theorem after_append {Val : EltTy → Type} (A B : List (HloOp τ sig Val)) (V : Valuation τ sig Val) :
    after (A ++ B) V = after B (after A V) := by
  induction A generalizing V with
  | nil => rfl
  | cons a A ih => rw [List.cons_append, after_cons, after_cons, ih]

/-- The six stretches of the operation list. -/
abbrev opsA : List (HloOp τ sig (Elt Ideal)) := (ops (F := Ideal)).take 15
abbrev opsB : List (HloOp τ sig (Elt Ideal)) := ((ops (F := Ideal)).drop 15).take 44
abbrev opsB' : List (HloOp τ sig (Elt Ideal)) := ((ops (F := Ideal)).drop 59).take 8
abbrev opsC : List (HloOp τ sig (Elt Ideal)) := ((ops (F := Ideal)).drop 67).take 44
abbrev opsD : List (HloOp τ sig (Elt Ideal)) := ((ops (F := Ideal)).drop 111).take 15
abbrev opsE : List (HloOp τ sig (Elt Ideal)) := (ops (F := Ideal)).drop 126

theorem ops_split : (ops (F := Ideal)) = opsA ++ (opsB ++ (opsB' ++ (opsC ++ (opsD ++ opsE)))) := rfl

variable (m : (ℓ : Loc nD τ sig) → Buf (Elt Ideal) ℓ)

/-- The buffers' contents after each stretch. -/
def U1 (c : Dev nD) : Valuation τ sig (Elt Ideal) := after opsA (launchContents m c)
def U2 (c : Dev nD) : Valuation τ sig (Elt Ideal) := after opsB (U1 m c)
def U2' (c : Dev nD) : Valuation τ sig (Elt Ideal) := after opsB' (U2 m c)
def U3 (c : Dev nD) : Valuation τ sig (Elt Ideal) := after opsC (U2' m c)
def U4 (c : Dev nD) : Valuation τ sig (Elt Ideal) := after opsD (U3 m c)
def U5 (c : Dev nD) : Valuation τ sig (Elt Ideal) := after opsE (U4 m c)

theorem after_ops (c : Dev nD) : after (ops (F := Ideal)) (launchContents m c) = U5 m c := by
  rw [ops_split, after_append, after_append, after_append, after_append, after_append]; rfl

/-- Opens a stretch's literal operation list and reads a buffer after it. -/
local macro "stretch_results" : tactic =>
  `(tactic| (simp only [opsA, opsB, opsB', opsC, opsD, opsE, ops, List.take_succ_cons, List.take_zero, List.drop_succ_cons, List.drop_zero, List.take_nil]; after_results_simp))

/-- At a literal buffer the transport of contents along its type equation is the identity. -/
theorem to_main_call0_cst (v : (⟨S_, .f32⟩ : BufTy).Contents (Elt Ideal)) : (TRef.of (sig := sig) (T := ⟨S_, .f32⟩) main_call0_cst).toBuf v = v := rfl
theorem of_main_call0_cst (v : (⟨S_, .f32⟩ : BufTy).Contents (Elt Ideal)) : (TRef.of (sig := sig) (T := ⟨S_, .f32⟩) main_call0_cst).ofBuf v = v := rfl
theorem to_main_call0_v0 (v : (⟨S100000x32, .f32⟩ : BufTy).Contents (Elt Ideal)) : (TRef.of (sig := sig) (T := ⟨S100000x32, .f32⟩) main_call0_v0).toBuf v = v := rfl
theorem of_main_call0_v0 (v : (⟨S100000x32, .f32⟩ : BufTy).Contents (Elt Ideal)) : (TRef.of (sig := sig) (T := ⟨S100000x32, .f32⟩) main_call0_v0).ofBuf v = v := rfl
theorem to_main_v48 (v : (⟨S100000x32, .f32⟩ : BufTy).Contents (Elt Ideal)) : (TRef.of (sig := sig) (T := ⟨S100000x32, .f32⟩) main_v48).toBuf v = v := rfl
theorem of_main_v48 (v : (⟨S100000x32, .f32⟩ : BufTy).Contents (Elt Ideal)) : (TRef.of (sig := sig) (T := ⟨S100000x32, .f32⟩) main_v48).ofBuf v = v := rfl
theorem to_main_v49 (v : (⟨S100000x32, .f32⟩ : BufTy).Contents (Elt Ideal)) : (TRef.of (sig := sig) (T := ⟨S100000x32, .f32⟩) main_v49).toBuf v = v := rfl
theorem of_main_v49 (v : (⟨S100000x32, .f32⟩ : BufTy).Contents (Elt Ideal)) : (TRef.of (sig := sig) (T := ⟨S100000x32, .f32⟩) main_v49).ofBuf v = v := rfl
theorem to_main_call1_cst (v : (⟨S_, .f32⟩ : BufTy).Contents (Elt Ideal)) : (TRef.of (sig := sig) (T := ⟨S_, .f32⟩) main_call1_cst).toBuf v = v := rfl
theorem of_main_call1_cst (v : (⟨S_, .f32⟩ : BufTy).Contents (Elt Ideal)) : (TRef.of (sig := sig) (T := ⟨S_, .f32⟩) main_call1_cst).ofBuf v = v := rfl
theorem to_main_v88 (v : (⟨S100000x8, .f32⟩ : BufTy).Contents (Elt Ideal)) : (TRef.of (sig := sig) (T := ⟨S100000x8, .f32⟩) main_v88).toBuf v = v := rfl
theorem of_main_v88 (v : (⟨S100000x8, .f32⟩ : BufTy).Contents (Elt Ideal)) : (TRef.of (sig := sig) (T := ⟨S100000x8, .f32⟩) main_v88).ofBuf v = v := rfl
theorem to_main_call1_v0 (v : (⟨S100000, .f32⟩ : BufTy).Contents (Elt Ideal)) : (TRef.of (sig := sig) (T := ⟨S100000, .f32⟩) main_call1_v0).toBuf v = v := rfl
theorem of_main_call1_v0 (v : (⟨S100000, .f32⟩ : BufTy).Contents (Elt Ideal)) : (TRef.of (sig := sig) (T := ⟨S100000, .f32⟩) main_call1_v0).ofBuf v = v := rfl
theorem to_main_call1_cst_0 (v : (⟨S_, .f32⟩ : BufTy).Contents (Elt Ideal)) : (TRef.of (sig := sig) (T := ⟨S_, .f32⟩) main_call1_cst_0).toBuf v = v := rfl
theorem of_main_call1_cst_0 (v : (⟨S_, .f32⟩ : BufTy).Contents (Elt Ideal)) : (TRef.of (sig := sig) (T := ⟨S_, .f32⟩) main_call1_cst_0).ofBuf v = v := rfl
theorem to_main_call1_v1 (v : (⟨S100000, .f32⟩ : BufTy).Contents (Elt Ideal)) : (TRef.of (sig := sig) (T := ⟨S100000, .f32⟩) main_call1_v1).toBuf v = v := rfl
theorem of_main_call1_v1 (v : (⟨S100000, .f32⟩ : BufTy).Contents (Elt Ideal)) : (TRef.of (sig := sig) (T := ⟨S100000, .f32⟩) main_call1_v1).ofBuf v = v := rfl
theorem to_main_call1_v2 (v : (⟨S100000, .f32⟩ : BufTy).Contents (Elt Ideal)) : (TRef.of (sig := sig) (T := ⟨S100000, .f32⟩) main_call1_v2).toBuf v = v := rfl
theorem of_main_call1_v2 (v : (⟨S100000, .f32⟩ : BufTy).Contents (Elt Ideal)) : (TRef.of (sig := sig) (T := ⟨S100000, .f32⟩) main_call1_v2).ofBuf v = v := rfl
theorem to_main_call1_v3 (v : (⟨S100000x1, .f32⟩ : BufTy).Contents (Elt Ideal)) : (TRef.of (sig := sig) (T := ⟨S100000x1, .f32⟩) main_call1_v3).toBuf v = v := rfl
theorem of_main_call1_v3 (v : (⟨S100000x1, .f32⟩ : BufTy).Contents (Elt Ideal)) : (TRef.of (sig := sig) (T := ⟨S100000x1, .f32⟩) main_call1_v3).ofBuf v = v := rfl
theorem to_main_call1_v4 (v : (⟨S100000x8, .f32⟩ : BufTy).Contents (Elt Ideal)) : (TRef.of (sig := sig) (T := ⟨S100000x8, .f32⟩) main_call1_v4).toBuf v = v := rfl
theorem of_main_call1_v4 (v : (⟨S100000x8, .f32⟩ : BufTy).Contents (Elt Ideal)) : (TRef.of (sig := sig) (T := ⟨S100000x8, .f32⟩) main_call1_v4).ofBuf v = v := rfl
theorem to_main_call1_v5 (v : (⟨S100000x8, .f32⟩ : BufTy).Contents (Elt Ideal)) : (TRef.of (sig := sig) (T := ⟨S100000x8, .f32⟩) main_call1_v5).toBuf v = v := rfl
theorem of_main_call1_v5 (v : (⟨S100000x8, .f32⟩ : BufTy).Contents (Elt Ideal)) : (TRef.of (sig := sig) (T := ⟨S100000x8, .f32⟩) main_call1_v5).ofBuf v = v := rfl
theorem to_main_call1_v6 (v : (⟨S100000x8, .f32⟩ : BufTy).Contents (Elt Ideal)) : (TRef.of (sig := sig) (T := ⟨S100000x8, .f32⟩) main_call1_v6).toBuf v = v := rfl
theorem of_main_call1_v6 (v : (⟨S100000x8, .f32⟩ : BufTy).Contents (Elt Ideal)) : (TRef.of (sig := sig) (T := ⟨S100000x8, .f32⟩) main_call1_v6).ofBuf v = v := rfl
theorem to_main_call1_cst_1 (v : (⟨S_, .f32⟩ : BufTy).Contents (Elt Ideal)) : (TRef.of (sig := sig) (T := ⟨S_, .f32⟩) main_call1_cst_1).toBuf v = v := rfl
theorem of_main_call1_cst_1 (v : (⟨S_, .f32⟩ : BufTy).Contents (Elt Ideal)) : (TRef.of (sig := sig) (T := ⟨S_, .f32⟩) main_call1_cst_1).ofBuf v = v := rfl
theorem to_main_call1_v7 (v : (⟨S100000, .f32⟩ : BufTy).Contents (Elt Ideal)) : (TRef.of (sig := sig) (T := ⟨S100000, .f32⟩) main_call1_v7).toBuf v = v := rfl
theorem of_main_call1_v7 (v : (⟨S100000, .f32⟩ : BufTy).Contents (Elt Ideal)) : (TRef.of (sig := sig) (T := ⟨S100000, .f32⟩) main_call1_v7).ofBuf v = v := rfl
theorem to_main_call1_v8 (v : (⟨S100000x1, .f32⟩ : BufTy).Contents (Elt Ideal)) : (TRef.of (sig := sig) (T := ⟨S100000x1, .f32⟩) main_call1_v8).toBuf v = v := rfl
theorem of_main_call1_v8 (v : (⟨S100000x1, .f32⟩ : BufTy).Contents (Elt Ideal)) : (TRef.of (sig := sig) (T := ⟨S100000x1, .f32⟩) main_call1_v8).ofBuf v = v := rfl
theorem to_main_call1_v9 (v : (⟨S100000x1, .f32⟩ : BufTy).Contents (Elt Ideal)) : (TRef.of (sig := sig) (T := ⟨S100000x1, .f32⟩) main_call1_v9).toBuf v = v := rfl
theorem of_main_call1_v9 (v : (⟨S100000x1, .f32⟩ : BufTy).Contents (Elt Ideal)) : (TRef.of (sig := sig) (T := ⟨S100000x1, .f32⟩) main_call1_v9).ofBuf v = v := rfl
theorem to_main_call1_v10 (v : (⟨S100000x8, .f32⟩ : BufTy).Contents (Elt Ideal)) : (TRef.of (sig := sig) (T := ⟨S100000x8, .f32⟩) main_call1_v10).toBuf v = v := rfl
theorem of_main_call1_v10 (v : (⟨S100000x8, .f32⟩ : BufTy).Contents (Elt Ideal)) : (TRef.of (sig := sig) (T := ⟨S100000x8, .f32⟩) main_call1_v10).ofBuf v = v := rfl
theorem to_main_v89 (v : (⟨S100000x8, .f32⟩ : BufTy).Contents (Elt Ideal)) : (TRef.of (sig := sig) (T := ⟨S100000x8, .f32⟩) main_v89).toBuf v = v := rfl
theorem of_main_v89 (v : (⟨S100000x8, .f32⟩ : BufTy).Contents (Elt Ideal)) : (TRef.of (sig := sig) (T := ⟨S100000x8, .f32⟩) main_v89).ofBuf v = v := rfl
theorem to_main_call2_cst (v : (⟨S_, .f32⟩ : BufTy).Contents (Elt Ideal)) : (TRef.of (sig := sig) (T := ⟨S_, .f32⟩) main_call2_cst).toBuf v = v := rfl
theorem of_main_call2_cst (v : (⟨S_, .f32⟩ : BufTy).Contents (Elt Ideal)) : (TRef.of (sig := sig) (T := ⟨S_, .f32⟩) main_call2_cst).ofBuf v = v := rfl
theorem to_main_call2_v0 (v : (⟨S100000x1, .f32⟩ : BufTy).Contents (Elt Ideal)) : (TRef.of (sig := sig) (T := ⟨S100000x1, .f32⟩) main_call2_v0).toBuf v = v := rfl
theorem of_main_call2_v0 (v : (⟨S100000x1, .f32⟩ : BufTy).Contents (Elt Ideal)) : (TRef.of (sig := sig) (T := ⟨S100000x1, .f32⟩) main_call2_v0).ofBuf v = v := rfl
theorem to_main_v95 (v : (⟨S100000x1, .f32⟩ : BufTy).Contents (Elt Ideal)) : (TRef.of (sig := sig) (T := ⟨S100000x1, .f32⟩) main_v95).toBuf v = v := rfl
theorem of_main_v95 (v : (⟨S100000x1, .f32⟩ : BufTy).Contents (Elt Ideal)) : (TRef.of (sig := sig) (T := ⟨S100000x1, .f32⟩) main_v95).ofBuf v = v := rfl
theorem to_main_v96 (v : (⟨S100000x1, .f32⟩ : BufTy).Contents (Elt Ideal)) : (TRef.of (sig := sig) (T := ⟨S100000x1, .f32⟩) main_v96).toBuf v = v := rfl
theorem of_main_v96 (v : (⟨S100000x1, .f32⟩ : BufTy).Contents (Elt Ideal)) : (TRef.of (sig := sig) (T := ⟨S100000x1, .f32⟩) main_v96).ofBuf v = v := rfl

/-- Removes every such transport from the goal. -/
local macro "strip_casts" : tactic =>
  `(tactic| repeat (first | rw [to_main_call0_cst] | rw [of_main_call0_cst] | rw [to_main_call0_v0] | rw [of_main_call0_v0] | rw [to_main_v48] | rw [of_main_v48] | rw [to_main_v49] | rw [of_main_v49] | rw [to_main_call1_cst] | rw [of_main_call1_cst] | rw [to_main_v88] | rw [of_main_v88] | rw [to_main_call1_v0] | rw [of_main_call1_v0] | rw [to_main_call1_cst_0] | rw [of_main_call1_cst_0] | rw [to_main_call1_v1] | rw [of_main_call1_v1] | rw [to_main_call1_v2] | rw [of_main_call1_v2] | rw [to_main_call1_v3] | rw [of_main_call1_v3] | rw [to_main_call1_v4] | rw [of_main_call1_v4] | rw [to_main_call1_v5] | rw [of_main_call1_v5] | rw [to_main_call1_v6] | rw [of_main_call1_v6] | rw [to_main_call1_cst_1] | rw [of_main_call1_cst_1] | rw [to_main_call1_v7] | rw [of_main_call1_v7] | rw [to_main_call1_v8] | rw [of_main_call1_v8] | rw [to_main_call1_v9] | rw [of_main_call1_v9] | rw [to_main_call1_v10] | rw [of_main_call1_v10] | rw [to_main_v89] | rw [of_main_v89] | rw [to_main_call2_cst] | rw [of_main_call2_cst] | rw [to_main_call2_v0] | rw [of_main_call2_v0] | rw [to_main_v95] | rw [of_main_v95] | rw [to_main_v96] | rw [of_main_v96]))

/-! ## The first stretch: the edge list and the first dense layer -/

theorem U1_v7 (c : Dev nD) : U1 m c (Proc.devRef .tc main_v7) = val_main_v7 (F := Ideal) (m ((c.tc : Thread nD τ).loc main_arg1)) := by
  unfold U1; stretch_results <;> rfl
theorem U1_v9 (c : Dev nD) : U1 m c (Proc.devRef .tc main_v9) = val_main_v9 (F := Ideal) (m ((c.tc : Thread nD τ).loc main_arg1)) := by
  unfold U1; stretch_results <;> rfl
theorem U1_v14 (c : Dev nD) : U1 m c (Proc.devRef .tc main_v14) = val_main_v14 (F := Ideal) (m ((c.tc : Thread nD τ).loc main_arg0)) (m ((c.tc : Thread nD τ).loc main_arg3)) (m ((c.tc : Thread nD τ).loc main_arg4)) := by
  unfold U1; stretch_results <;> rfl
theorem U1_arg2 (c : Dev nD) : U1 m c (Proc.devRef .tc main_arg2) = launchContents m c (Proc.devRef .tc main_arg2) := by
  unfold U1; exact after_of_forall_not_mem (b := Proc.devRef .tc main_arg2) _ _ (List.forall_iff_forall_mem.mp (by
      simp only [U1, opsA, ops, List.take_succ_cons, List.take_zero, List.drop_succ_cons, List.drop_zero, List.take_nil, List.Forall,
        nullary_writes, unary_writes, binary_writes, ternary_writes, quaternary_writes, reshape_writes, binaryIndexed_writes, Finset.mem_singleton]
      repeat' apply And.intro
      all_goals exact devRef_ne_of_ne (by decide)))
theorem U1_arg5 (c : Dev nD) : U1 m c (Proc.devRef .tc main_arg5) = launchContents m c (Proc.devRef .tc main_arg5) := by
  unfold U1; exact after_of_forall_not_mem (b := Proc.devRef .tc main_arg5) _ _ (List.forall_iff_forall_mem.mp (by
      simp only [U1, opsA, ops, List.take_succ_cons, List.take_zero, List.drop_succ_cons, List.drop_zero, List.take_nil, List.Forall,
        nullary_writes, unary_writes, binary_writes, ternary_writes, quaternary_writes, reshape_writes, binaryIndexed_writes, Finset.mem_singleton]
      repeat' apply And.intro
      all_goals exact devRef_ne_of_ne (by decide)))
theorem U1_arg6 (c : Dev nD) : U1 m c (Proc.devRef .tc main_arg6) = launchContents m c (Proc.devRef .tc main_arg6) := by
  unfold U1; exact after_of_forall_not_mem (b := Proc.devRef .tc main_arg6) _ _ (List.forall_iff_forall_mem.mp (by
      simp only [U1, opsA, ops, List.take_succ_cons, List.take_zero, List.drop_succ_cons, List.drop_zero, List.take_nil, List.Forall,
        nullary_writes, unary_writes, binary_writes, ternary_writes, quaternary_writes, reshape_writes, binaryIndexed_writes, Finset.mem_singleton]
      repeat' apply And.intro
      all_goals exact devRef_ne_of_ne (by decide)))
theorem U1_arg7 (c : Dev nD) : U1 m c (Proc.devRef .tc main_arg7) = launchContents m c (Proc.devRef .tc main_arg7) := by
  unfold U1; exact after_of_forall_not_mem (b := Proc.devRef .tc main_arg7) _ _ (List.forall_iff_forall_mem.mp (by
      simp only [U1, opsA, ops, List.take_succ_cons, List.take_zero, List.drop_succ_cons, List.drop_zero, List.take_nil, List.Forall,
        nullary_writes, unary_writes, binary_writes, ternary_writes, quaternary_writes, reshape_writes, binaryIndexed_writes, Finset.mem_singleton]
      repeat' apply And.intro
      all_goals exact devRef_ne_of_ne (by decide)))
theorem U1_arg8 (c : Dev nD) : U1 m c (Proc.devRef .tc main_arg8) = launchContents m c (Proc.devRef .tc main_arg8) := by
  unfold U1; exact after_of_forall_not_mem (b := Proc.devRef .tc main_arg8) _ _ (List.forall_iff_forall_mem.mp (by
      simp only [U1, opsA, ops, List.take_succ_cons, List.take_zero, List.drop_succ_cons, List.drop_zero, List.take_nil, List.Forall,
        nullary_writes, unary_writes, binary_writes, ternary_writes, quaternary_writes, reshape_writes, binaryIndexed_writes, Finset.mem_singleton]
      repeat' apply And.intro
      all_goals exact devRef_ne_of_ne (by decide)))

/-! ## The second stretch: the first aggregation -/

theorem U2_keep_v7 (c : Dev nD) : U2 m c (Proc.devRef .tc main_v7) = U1 m c (Proc.devRef .tc main_v7) := by
  unfold U2; exact after_of_forall_not_mem (b := Proc.devRef .tc main_v7) _ _ (List.forall_iff_forall_mem.mp (by
      simp only [opsB, ops, List.take_succ_cons, List.take_zero, List.drop_succ_cons, List.drop_zero, List.take_nil, List.Forall,
        nullary_writes, unary_writes, binary_writes, ternary_writes, quaternary_writes, reshape_writes, binaryIndexed_writes, Finset.mem_singleton]
      repeat' apply And.intro
      all_goals exact devRef_ne_of_ne (by decide)))
theorem U2_keep_v9 (c : Dev nD) : U2 m c (Proc.devRef .tc main_v9) = U1 m c (Proc.devRef .tc main_v9) := by
  unfold U2; exact after_of_forall_not_mem (b := Proc.devRef .tc main_v9) _ _ (List.forall_iff_forall_mem.mp (by
      simp only [opsB, ops, List.take_succ_cons, List.take_zero, List.drop_succ_cons, List.drop_zero, List.take_nil, List.Forall,
        nullary_writes, unary_writes, binary_writes, ternary_writes, quaternary_writes, reshape_writes, binaryIndexed_writes, Finset.mem_singleton]
      repeat' apply And.intro
      all_goals exact devRef_ne_of_ne (by decide)))
theorem U2_keep_arg2 (c : Dev nD) : U2 m c (Proc.devRef .tc main_arg2) = U1 m c (Proc.devRef .tc main_arg2) := by
  unfold U2; exact after_of_forall_not_mem (b := Proc.devRef .tc main_arg2) _ _ (List.forall_iff_forall_mem.mp (by
      simp only [opsB, ops, List.take_succ_cons, List.take_zero, List.drop_succ_cons, List.drop_zero, List.take_nil, List.Forall,
        nullary_writes, unary_writes, binary_writes, ternary_writes, quaternary_writes, reshape_writes, binaryIndexed_writes, Finset.mem_singleton]
      repeat' apply And.intro
      all_goals exact devRef_ne_of_ne (by decide)))
theorem U2_keep_arg5 (c : Dev nD) : U2 m c (Proc.devRef .tc main_arg5) = U1 m c (Proc.devRef .tc main_arg5) := by
  unfold U2; exact after_of_forall_not_mem (b := Proc.devRef .tc main_arg5) _ _ (List.forall_iff_forall_mem.mp (by
      simp only [opsB, ops, List.take_succ_cons, List.take_zero, List.drop_succ_cons, List.drop_zero, List.take_nil, List.Forall,
        nullary_writes, unary_writes, binary_writes, ternary_writes, quaternary_writes, reshape_writes, binaryIndexed_writes, Finset.mem_singleton]
      repeat' apply And.intro
      all_goals exact devRef_ne_of_ne (by decide)))
theorem U2_keep_arg6 (c : Dev nD) : U2 m c (Proc.devRef .tc main_arg6) = U1 m c (Proc.devRef .tc main_arg6) := by
  unfold U2; exact after_of_forall_not_mem (b := Proc.devRef .tc main_arg6) _ _ (List.forall_iff_forall_mem.mp (by
      simp only [opsB, ops, List.take_succ_cons, List.take_zero, List.drop_succ_cons, List.drop_zero, List.take_nil, List.Forall,
        nullary_writes, unary_writes, binary_writes, ternary_writes, quaternary_writes, reshape_writes, binaryIndexed_writes, Finset.mem_singleton]
      repeat' apply And.intro
      all_goals exact devRef_ne_of_ne (by decide)))
theorem U2_keep_arg7 (c : Dev nD) : U2 m c (Proc.devRef .tc main_arg7) = U1 m c (Proc.devRef .tc main_arg7) := by
  unfold U2; exact after_of_forall_not_mem (b := Proc.devRef .tc main_arg7) _ _ (List.forall_iff_forall_mem.mp (by
      simp only [opsB, ops, List.take_succ_cons, List.take_zero, List.drop_succ_cons, List.drop_zero, List.take_nil, List.Forall,
        nullary_writes, unary_writes, binary_writes, ternary_writes, quaternary_writes, reshape_writes, binaryIndexed_writes, Finset.mem_singleton]
      repeat' apply And.intro
      all_goals exact devRef_ne_of_ne (by decide)))
theorem U2_keep_arg8 (c : Dev nD) : U2 m c (Proc.devRef .tc main_arg8) = U1 m c (Proc.devRef .tc main_arg8) := by
  unfold U2; exact after_of_forall_not_mem (b := Proc.devRef .tc main_arg8) _ _ (List.forall_iff_forall_mem.mp (by
      simp only [opsB, ops, List.take_succ_cons, List.take_zero, List.drop_succ_cons, List.drop_zero, List.take_nil, List.Forall,
        nullary_writes, unary_writes, binary_writes, ternary_writes, quaternary_writes, reshape_writes, binaryIndexed_writes, Finset.mem_singleton]
      repeat' apply And.intro
      all_goals exact devRef_ne_of_ne (by decide)))

theorem U2_v48 (c : Dev nD) : U2 m c (Proc.devRef .tc main_v48) = val_main_v48 (F := Ideal) (m ((c.tc : Thread nD τ).loc main_arg0)) (m ((c.tc : Thread nD τ).loc main_arg1)) (m ((c.tc : Thread nD τ).loc main_arg3)) (m ((c.tc : Thread nD τ).loc main_arg4)) := by
  unfold U2; stretch_results
  rw [U1_v7, U1_v9, U1_v14]
  rfl

/-! ## The rectifier and the second dense layer -/

theorem U2'_keep_v7 (c : Dev nD) : U2' m c (Proc.devRef .tc main_v7) = U2 m c (Proc.devRef .tc main_v7) := by
  unfold U2'; exact after_of_forall_not_mem (b := Proc.devRef .tc main_v7) _ _ (List.forall_iff_forall_mem.mp (by
      simp only [opsB', ops, List.take_succ_cons, List.take_zero, List.drop_succ_cons, List.drop_zero, List.take_nil, List.Forall,
        nullary_writes, unary_writes, binary_writes, ternary_writes, quaternary_writes, reshape_writes, binaryIndexed_writes, Finset.mem_singleton]
      repeat' apply And.intro
      all_goals exact devRef_ne_of_ne (by decide)))
theorem U2'_keep_v9 (c : Dev nD) : U2' m c (Proc.devRef .tc main_v9) = U2 m c (Proc.devRef .tc main_v9) := by
  unfold U2'; exact after_of_forall_not_mem (b := Proc.devRef .tc main_v9) _ _ (List.forall_iff_forall_mem.mp (by
      simp only [opsB', ops, List.take_succ_cons, List.take_zero, List.drop_succ_cons, List.drop_zero, List.take_nil, List.Forall,
        nullary_writes, unary_writes, binary_writes, ternary_writes, quaternary_writes, reshape_writes, binaryIndexed_writes, Finset.mem_singleton]
      repeat' apply And.intro
      all_goals exact devRef_ne_of_ne (by decide)))
theorem U2'_keep_arg2 (c : Dev nD) : U2' m c (Proc.devRef .tc main_arg2) = U2 m c (Proc.devRef .tc main_arg2) := by
  unfold U2'; exact after_of_forall_not_mem (b := Proc.devRef .tc main_arg2) _ _ (List.forall_iff_forall_mem.mp (by
      simp only [opsB', ops, List.take_succ_cons, List.take_zero, List.drop_succ_cons, List.drop_zero, List.take_nil, List.Forall,
        nullary_writes, unary_writes, binary_writes, ternary_writes, quaternary_writes, reshape_writes, binaryIndexed_writes, Finset.mem_singleton]
      repeat' apply And.intro
      all_goals exact devRef_ne_of_ne (by decide)))
theorem U2'_keep_arg7 (c : Dev nD) : U2' m c (Proc.devRef .tc main_arg7) = U2 m c (Proc.devRef .tc main_arg7) := by
  unfold U2'; exact after_of_forall_not_mem (b := Proc.devRef .tc main_arg7) _ _ (List.forall_iff_forall_mem.mp (by
      simp only [opsB', ops, List.take_succ_cons, List.take_zero, List.drop_succ_cons, List.drop_zero, List.take_nil, List.Forall,
        nullary_writes, unary_writes, binary_writes, ternary_writes, quaternary_writes, reshape_writes, binaryIndexed_writes, Finset.mem_singleton]
      repeat' apply And.intro
      all_goals exact devRef_ne_of_ne (by decide)))
theorem U2'_keep_arg8 (c : Dev nD) : U2' m c (Proc.devRef .tc main_arg8) = U2 m c (Proc.devRef .tc main_arg8) := by
  unfold U2'; exact after_of_forall_not_mem (b := Proc.devRef .tc main_arg8) _ _ (List.forall_iff_forall_mem.mp (by
      simp only [opsB', ops, List.take_succ_cons, List.take_zero, List.drop_succ_cons, List.drop_zero, List.take_nil, List.Forall,
        nullary_writes, unary_writes, binary_writes, ternary_writes, quaternary_writes, reshape_writes, binaryIndexed_writes, Finset.mem_singleton]
      repeat' apply And.intro
      all_goals exact devRef_ne_of_ne (by decide)))

theorem U2'_v54 (c : Dev nD) : U2' m c (Proc.devRef .tc main_v54) = val_main_v54 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
  unfold U2'; stretch_results
  strip_casts
  rw [U2_v48, U2_keep_arg5, U2_keep_arg6, U1_arg5, U1_arg6]
  rfl

/-! ## The second aggregation -/

theorem U3_keep_arg2 (c : Dev nD) : U3 m c (Proc.devRef .tc main_arg2) = U2' m c (Proc.devRef .tc main_arg2) := by
  unfold U3; exact after_of_forall_not_mem (b := Proc.devRef .tc main_arg2) _ _ (List.forall_iff_forall_mem.mp (by
      simp only [opsC, ops, List.take_succ_cons, List.take_zero, List.drop_succ_cons, List.drop_zero, List.take_nil, List.Forall,
        nullary_writes, unary_writes, binary_writes, ternary_writes, quaternary_writes, reshape_writes, binaryIndexed_writes, Finset.mem_singleton]
      repeat' apply And.intro
      all_goals exact devRef_ne_of_ne (by decide)))
theorem U3_keep_arg7 (c : Dev nD) : U3 m c (Proc.devRef .tc main_arg7) = U2' m c (Proc.devRef .tc main_arg7) := by
  unfold U3; exact after_of_forall_not_mem (b := Proc.devRef .tc main_arg7) _ _ (List.forall_iff_forall_mem.mp (by
      simp only [opsC, ops, List.take_succ_cons, List.take_zero, List.drop_succ_cons, List.drop_zero, List.take_nil, List.Forall,
        nullary_writes, unary_writes, binary_writes, ternary_writes, quaternary_writes, reshape_writes, binaryIndexed_writes, Finset.mem_singleton]
      repeat' apply And.intro
      all_goals exact devRef_ne_of_ne (by decide)))
theorem U3_keep_arg8 (c : Dev nD) : U3 m c (Proc.devRef .tc main_arg8) = U2' m c (Proc.devRef .tc main_arg8) := by
  unfold U3; exact after_of_forall_not_mem (b := Proc.devRef .tc main_arg8) _ _ (List.forall_iff_forall_mem.mp (by
      simp only [opsC, ops, List.take_succ_cons, List.take_zero, List.drop_succ_cons, List.drop_zero, List.take_nil, List.Forall,
        nullary_writes, unary_writes, binary_writes, ternary_writes, quaternary_writes, reshape_writes, binaryIndexed_writes, Finset.mem_singleton]
      repeat' apply And.intro
      all_goals exact devRef_ne_of_ne (by decide)))

theorem U3_v88 (c : Dev nD) : U3 m c (Proc.devRef .tc main_v88) = val_main_v88 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
  unfold U3; stretch_results
  rw [U2'_keep_v7, U2'_keep_v9, U2_keep_v7, U2_keep_v9, U1_v7, U1_v9, U2'_v54]
  rfl

/-! ## The row-wise log-softmax -/

theorem U4_keep_arg2 (c : Dev nD) : U4 m c (Proc.devRef .tc main_arg2) = U3 m c (Proc.devRef .tc main_arg2) := by
  unfold U4; exact after_of_forall_not_mem (b := Proc.devRef .tc main_arg2) _ _ (List.forall_iff_forall_mem.mp (by
      simp only [opsD, ops, List.take_succ_cons, List.take_zero, List.drop_succ_cons, List.drop_zero, List.take_nil, List.Forall,
        nullary_writes, unary_writes, binary_writes, ternary_writes, quaternary_writes, reshape_writes, binaryIndexed_writes, Finset.mem_singleton]
      repeat' apply And.intro
      all_goals exact devRef_ne_of_ne (by decide)))
theorem U4_keep_arg7 (c : Dev nD) : U4 m c (Proc.devRef .tc main_arg7) = U3 m c (Proc.devRef .tc main_arg7) := by
  unfold U4; exact after_of_forall_not_mem (b := Proc.devRef .tc main_arg7) _ _ (List.forall_iff_forall_mem.mp (by
      simp only [opsD, ops, List.take_succ_cons, List.take_zero, List.drop_succ_cons, List.drop_zero, List.take_nil, List.Forall,
        nullary_writes, unary_writes, binary_writes, ternary_writes, quaternary_writes, reshape_writes, binaryIndexed_writes, Finset.mem_singleton]
      repeat' apply And.intro
      all_goals exact devRef_ne_of_ne (by decide)))
theorem U4_keep_arg8 (c : Dev nD) : U4 m c (Proc.devRef .tc main_arg8) = U3 m c (Proc.devRef .tc main_arg8) := by
  unfold U4; exact after_of_forall_not_mem (b := Proc.devRef .tc main_arg8) _ _ (List.forall_iff_forall_mem.mp (by
      simp only [opsD, ops, List.take_succ_cons, List.take_zero, List.drop_succ_cons, List.drop_zero, List.take_nil, List.Forall,
        nullary_writes, unary_writes, binary_writes, ternary_writes, quaternary_writes, reshape_writes, binaryIndexed_writes, Finset.mem_singleton]
      repeat' apply And.intro
      all_goals exact devRef_ne_of_ne (by decide)))

theorem U4_v89 (c : Dev nD) : U4 m c (Proc.devRef .tc main_v89) = val_main_v89 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
  unfold U4; stretch_results
  strip_casts
  rw [U3_v88]
  rfl

/-! ## The head -/

theorem U5_keep_v89 (c : Dev nD) : U5 m c (Proc.devRef .tc main_v89) = U4 m c (Proc.devRef .tc main_v89) := by
  unfold U5; exact after_of_forall_not_mem (b := Proc.devRef .tc main_v89) _ _ (List.forall_iff_forall_mem.mp (by
      simp only [opsE, ops, List.take_succ_cons, List.take_zero, List.drop_succ_cons, List.drop_zero, List.take_nil, List.Forall,
        nullary_writes, unary_writes, binary_writes, ternary_writes, quaternary_writes, reshape_writes, binaryIndexed_writes, Finset.mem_singleton]
      repeat' apply And.intro
      all_goals exact devRef_ne_of_ne (by decide)))

theorem U5_v96 (c : Dev nD) : U5 m c (Proc.devRef .tc main_v96) = val_main_v96 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  unfold U5; stretch_results
  strip_casts
  rw [U4_v89, U4_keep_arg2, U3_keep_arg2, U2'_keep_arg2, U2_keep_arg2, U1_arg2, U4_keep_arg7, U3_keep_arg7, U2'_keep_arg7, U2_keep_arg7, U1_arg7,
    U4_keep_arg8, U3_keep_arg8, U2'_keep_arg8, U2_keep_arg8, U1_arg8]
  rfl

/-! ## The arguments, and the run -/

theorem kept_arg0 (c : Dev nD) : after (ops (F := Ideal)) (launchContents m c) (Proc.devRef .tc main_arg0) = (m ((c.tc : Thread nD τ).loc main_arg0)) :=
  after_of_forall_not_mem (b := Proc.devRef .tc main_arg0) _ _ (List.forall_iff_forall_mem.mp (by
      simp only [ops, List.Forall, nullary_writes, unary_writes, binary_writes, ternary_writes, quaternary_writes, reshape_writes, binaryIndexed_writes, Finset.mem_singleton]
      repeat' apply And.intro
      all_goals exact devRef_ne_of_ne (by decide)))
theorem kept_arg1 (c : Dev nD) : after (ops (F := Ideal)) (launchContents m c) (Proc.devRef .tc main_arg1) = (m ((c.tc : Thread nD τ).loc main_arg1)) :=
  after_of_forall_not_mem (b := Proc.devRef .tc main_arg1) _ _ (List.forall_iff_forall_mem.mp (by
      simp only [ops, List.Forall, nullary_writes, unary_writes, binary_writes, ternary_writes, quaternary_writes, reshape_writes, binaryIndexed_writes, Finset.mem_singleton]
      repeat' apply And.intro
      all_goals exact devRef_ne_of_ne (by decide)))
theorem kept_arg2 (c : Dev nD) : after (ops (F := Ideal)) (launchContents m c) (Proc.devRef .tc main_arg2) = (m ((c.tc : Thread nD τ).loc main_arg2)) :=
  after_of_forall_not_mem (b := Proc.devRef .tc main_arg2) _ _ (List.forall_iff_forall_mem.mp (by
      simp only [ops, List.Forall, nullary_writes, unary_writes, binary_writes, ternary_writes, quaternary_writes, reshape_writes, binaryIndexed_writes, Finset.mem_singleton]
      repeat' apply And.intro
      all_goals exact devRef_ne_of_ne (by decide)))
theorem kept_arg3 (c : Dev nD) : after (ops (F := Ideal)) (launchContents m c) (Proc.devRef .tc main_arg3) = (m ((c.tc : Thread nD τ).loc main_arg3)) :=
  after_of_forall_not_mem (b := Proc.devRef .tc main_arg3) _ _ (List.forall_iff_forall_mem.mp (by
      simp only [ops, List.Forall, nullary_writes, unary_writes, binary_writes, ternary_writes, quaternary_writes, reshape_writes, binaryIndexed_writes, Finset.mem_singleton]
      repeat' apply And.intro
      all_goals exact devRef_ne_of_ne (by decide)))
theorem kept_arg4 (c : Dev nD) : after (ops (F := Ideal)) (launchContents m c) (Proc.devRef .tc main_arg4) = (m ((c.tc : Thread nD τ).loc main_arg4)) :=
  after_of_forall_not_mem (b := Proc.devRef .tc main_arg4) _ _ (List.forall_iff_forall_mem.mp (by
      simp only [ops, List.Forall, nullary_writes, unary_writes, binary_writes, ternary_writes, quaternary_writes, reshape_writes, binaryIndexed_writes, Finset.mem_singleton]
      repeat' apply And.intro
      all_goals exact devRef_ne_of_ne (by decide)))
theorem kept_arg5 (c : Dev nD) : after (ops (F := Ideal)) (launchContents m c) (Proc.devRef .tc main_arg5) = (m ((c.tc : Thread nD τ).loc main_arg5)) :=
  after_of_forall_not_mem (b := Proc.devRef .tc main_arg5) _ _ (List.forall_iff_forall_mem.mp (by
      simp only [ops, List.Forall, nullary_writes, unary_writes, binary_writes, ternary_writes, quaternary_writes, reshape_writes, binaryIndexed_writes, Finset.mem_singleton]
      repeat' apply And.intro
      all_goals exact devRef_ne_of_ne (by decide)))
theorem kept_arg6 (c : Dev nD) : after (ops (F := Ideal)) (launchContents m c) (Proc.devRef .tc main_arg6) = (m ((c.tc : Thread nD τ).loc main_arg6)) :=
  after_of_forall_not_mem (b := Proc.devRef .tc main_arg6) _ _ (List.forall_iff_forall_mem.mp (by
      simp only [ops, List.Forall, nullary_writes, unary_writes, binary_writes, ternary_writes, quaternary_writes, reshape_writes, binaryIndexed_writes, Finset.mem_singleton]
      repeat' apply And.intro
      all_goals exact devRef_ne_of_ne (by decide)))
theorem kept_arg7 (c : Dev nD) : after (ops (F := Ideal)) (launchContents m c) (Proc.devRef .tc main_arg7) = (m ((c.tc : Thread nD τ).loc main_arg7)) :=
  after_of_forall_not_mem (b := Proc.devRef .tc main_arg7) _ _ (List.forall_iff_forall_mem.mp (by
      simp only [ops, List.Forall, nullary_writes, unary_writes, binary_writes, ternary_writes, quaternary_writes, reshape_writes, binaryIndexed_writes, Finset.mem_singleton]
      repeat' apply And.intro
      all_goals exact devRef_ne_of_ne (by decide)))
theorem kept_arg8 (c : Dev nD) : after (ops (F := Ideal)) (launchContents m c) (Proc.devRef .tc main_arg8) = (m ((c.tc : Thread nD τ).loc main_arg8)) :=
  after_of_forall_not_mem (b := Proc.devRef .tc main_arg8) _ _ (List.forall_iff_forall_mem.mp (by
      simp only [ops, List.Forall, nullary_writes, unary_writes, binary_writes, ternary_writes, quaternary_writes, reshape_writes, binaryIndexed_writes, Finset.mem_singleton]
      repeat' apply And.intro
      all_goals exact devRef_ne_of_ne (by decide)))

/-- On every device, from any memory with zero counters: every weakly fair execution of the reference terminates, nothing
    faulting, with the output column at the stage `val_main_v96` and the embedding at the stage `val_main_v89` of the
    argument arrays, and the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v96) = val_main_v96 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v89) = val_main_v89 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = (m ((c.tc : Thread nD τ).loc main_arg0))
      ∧ r.2.mem ((c.tc : Thread nD τ).loc main_arg1) = (m ((c.tc : Thread nD τ).loc main_arg1))
      ∧ r.2.mem ((c.tc : Thread nD τ).loc main_arg2) = (m ((c.tc : Thread nD τ).loc main_arg2))
      ∧ r.2.mem ((c.tc : Thread nD τ).loc main_arg3) = (m ((c.tc : Thread nD τ).loc main_arg3))
      ∧ r.2.mem ((c.tc : Thread nD τ).loc main_arg4) = (m ((c.tc : Thread nD τ).loc main_arg4))
      ∧ r.2.mem ((c.tc : Thread nD τ).loc main_arg5) = (m ((c.tc : Thread nD τ).loc main_arg5))
      ∧ r.2.mem ((c.tc : Thread nD τ).loc main_arg6) = (m ((c.tc : Thread nD τ).loc main_arg6))
      ∧ r.2.mem ((c.tc : Thread nD τ).loc main_arg7) = (m ((c.tc : Thread nD τ).loc main_arg7))
      ∧ r.2.mem ((c.tc : Thread nD τ).loc main_arg8) = (m ((c.tc : Thread nD τ).loc main_arg8)) :=
  (θ_run defs _ _).mono (fun _ h c => ⟨(h c main_v96).trans ((congrFun (after_ops m c) _).trans (U5_v96 m c)),
      (h c main_v89).trans ((congrFun (after_ops m c) _).trans ((U5_keep_v89 m c).trans (U4_v89 m c))),
      (h c main_arg0).trans (kept_arg0 m c),
      (h c main_arg1).trans (kept_arg1 m c),
      (h c main_arg2).trans (kept_arg2 m c),
      (h c main_arg3).trans (kept_arg3 m c),
      (h c main_arg4).trans (kept_arg4 m c),
      (h c main_arg5).trans (kept_arg5 m c),
      (h c main_arg6).trans (kept_arg6 m c),
      (h c main_arg7).trans (kept_arg7 m c),
      (h c main_arg8).trans (kept_arg8 m c)⟩)
    (run_seq scopedRefs_eq scopedSems_eq defs main (fun _ => ops) main_eq (fun _ => ops_sub) m ρ)

end Cert.ReferenceIdeal.Staged

end
-- ==== Proof.RefStages.lean ====
/-
  Each stage of the reference program that is not a graph aggregation is one of the plain functions of the
  specification: the two dense layers, the row-wise log-softmax and the final head.
-/
import proofs.«152048_j65025804862040_1_alg».proof.Proof.RefRead
import proofs.«152048_j65025804862040_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.Reduce

noncomputable section

namespace Cert.ReferenceIdeal.Stages

open Cert.ReferenceIdeal Cert.ReferenceIdeal.Gen Cert.ReferenceIdeal.Read Cert.GcnSpec Idealize.ShloMosaic Idealize.ShloMosaic.ValueIdx

/-- The first linear layer: entry (r, j) is the inner product of row r of the features with column j of the
    transposed weights, plus the bias at j. -/
theorem first_layer (x0 : (⟨S100000x128, .f32⟩ : BufTy).Contents (Elt Ideal))
    (x3 : (⟨S32x128, .f32⟩ : BufTy).Contents (Elt Ideal)) (x4 : (⟨S32, .f32⟩ : BufTy).Contents (Elt Ideal)) :
    val_main_v14 (F := Ideal) x0 x3 x4 = dense x0 (val_main_v10 (F := Ideal) x3) x4 := by
  funext i
  obtain ⟨r, j, rfl⟩ : ∃ (r : Fin 100000) (j : Fin 32), i = ix2 r j := ⟨i 0, i 1, eq_ix2 i⟩
  rw [val_main_v14_apply, val_main_v11_apply, val_main_v13_apply, val_main_v12_apply]
  generalize val_main_v10 (F := Ideal) x3 = wt
  unfold dense
  have el : ∀ k : Fin 128, lidx_main_v11 (ix2 r j) k = ix2 r k := fun k =>
    funext fun a => Fin.ext (by match a with | ⟨0, _⟩ => rfl | ⟨1, _⟩ => rfl)
  have er : ∀ k : Fin 128, ridx_main_v11 (ix2 r j) k = ix2 k j := fun k =>
    funext fun a => Fin.ext (by match a with | ⟨0, _⟩ => rfl | ⟨1, _⟩ => rfl)
  have eb : idx_main_v12 (idx_main_v13 (ix2 r j)) = ix1 j :=
    funext fun a => Fin.ext (by match a with | ⟨0, _⟩ => rfl)
  simp only [el, er, eb, Ideal.addf_def]

/-- The rectified first aggregation: the reference's maximum with a zero array is the rectifier. -/
theorem rectified (x0 : (⟨S100000x128, .f32⟩ : BufTy).Contents (Elt Ideal)) (x1 : (⟨S2x3200000, .i32⟩ : BufTy).Contents (Elt Ideal))
    (x3 : (⟨S32x128, .f32⟩ : BufTy).Contents (Elt Ideal)) (x4 : (⟨S32, .f32⟩ : BufTy).Contents (Elt Ideal)) :
    val_main_v49 (F := Ideal) x0 x1 x3 x4 = relu (val_main_v48 (F := Ideal) x0 x1 x3 x4) := by
  unfold val_main_v49
  generalize val_main_v48 (F := Ideal) x0 x1 x3 x4 = a1
  funext i
  rw [maximumf_apply, val_main_call0_v0_apply, val_main_call0_cst_apply, Ideal.ofBits_def, Ideal.ofBits_zero_f32]
  rfl

/-- The second linear layer, on the rectified first aggregation. -/
theorem second_layer (x0 : (⟨S100000x128, .f32⟩ : BufTy).Contents (Elt Ideal)) (x1 : (⟨S2x3200000, .i32⟩ : BufTy).Contents (Elt Ideal))
    (x3 : (⟨S32x128, .f32⟩ : BufTy).Contents (Elt Ideal)) (x4 : (⟨S32, .f32⟩ : BufTy).Contents (Elt Ideal))
    (x5 : (⟨S8x32, .f32⟩ : BufTy).Contents (Elt Ideal)) (x6 : (⟨S8, .f32⟩ : BufTy).Contents (Elt Ideal)) :
    val_main_v54 (F := Ideal) x0 x1 x3 x4 x5 x6
      = dense (relu (val_main_v48 (F := Ideal) x0 x1 x3 x4)) (val_main_v50 (F := Ideal) x5) x6 := by
  funext i
  obtain ⟨r, j, rfl⟩ : ∃ (r : Fin 100000) (j : Fin 8), i = ix2 r j := ⟨i 0, i 1, eq_ix2 i⟩
  rw [val_main_v54_apply, val_main_v51_apply, val_main_v53_apply, val_main_v52_apply, rectified]
  generalize relu (val_main_v48 (F := Ideal) x0 x1 x3 x4) = h
  generalize val_main_v50 (F := Ideal) x5 = wt
  unfold dense
  have el : ∀ k : Fin 32, lidx_main_v51 (ix2 r j) k = ix2 r k := fun k =>
    funext fun a => Fin.ext (by match a with | ⟨0, _⟩ => rfl | ⟨1, _⟩ => rfl)
  have er : ∀ k : Fin 32, ridx_main_v51 (ix2 r j) k = ix2 k j := fun k =>
    funext fun a => Fin.ext (by match a with | ⟨0, _⟩ => rfl | ⟨1, _⟩ => rfl)
  have eb : idx_main_v52 (idx_main_v53 (ix2 r j)) = ix1 j :=
    funext fun a => Fin.ext (by match a with | ⟨0, _⟩ => rfl)
  simp only [el, er, eb, Ideal.addf_def]

/-! ## The row-wise log-softmax -/

/-- The word 0xFF800000 is −∞, the bottom element of the extended reals. -/
theorem neg_inf_word : Ideal.ofBits .f32 0xFF800000#32 = (⊥ : EReal) := by
  simp [Ideal.ofBits, Ideal.ieee]

/-- A reduction with `max` along the rows of a 100000 × 8 matrix is, at row r, the fold of `max` from the
    initial value over the row's eight entries. -/
theorem row_max_read (a : (⟨S100000x8, .f32⟩ : BufTy).Contents (Elt Ideal))
    (init : (⟨S_, .f32⟩ : BufTy).Contents (Elt Ideal)) (r : Fin 100000) :
    Host.reduce (FloatOps.maximumf (F := Ideal) (φ := .f32)) a init reducesTo_S100000x8_S100000_d1 h_S_ (ix1 r)
      = (Finset.univ : Finset (Fin 8)).fold max (init (Shape.Idx.first h_S_)) (fun k => a (ix2 r k)) := by
  rw [Host.reduce_eq_fold_single (FloatOps.maximumf (F := Ideal) (φ := .f32)) a init reducesTo_S100000x8_S100000_d1
    (by decide) h_S_ (ix1 r)]
  refine Finset.fold_congr (fun k _ => ?_)
  exact congrArg a (funext fun d => Fin.ext (by match d with | ⟨0, _⟩ => rfl | ⟨1, _⟩ => rfl))

/-- The shift subtracted from every entry of row r is the row's maximum: the reference takes the maximum of −∞
    with the row's fold of `max` from −∞, and spreads it along the row. -/
theorem shift_apply (x0 : (⟨S100000x128, .f32⟩ : BufTy).Contents (Elt Ideal)) (x1 : (⟨S2x3200000, .i32⟩ : BufTy).Contents (Elt Ideal))
    (x3 : (⟨S32x128, .f32⟩ : BufTy).Contents (Elt Ideal)) (x4 : (⟨S32, .f32⟩ : BufTy).Contents (Elt Ideal))
    (x5 : (⟨S8x32, .f32⟩ : BufTy).Contents (Elt Ideal)) (x6 : (⟨S8, .f32⟩ : BufTy).Contents (Elt Ideal))
    (r : Fin 100000) (k : Fin 8) :
    val_main_call1_v4 (F := Ideal) x0 x1 x3 x4 x5 x6 (ix2 r k)
      = rowMax (val_main_v88 (F := Ideal) x0 x1 x3 x4 x5 x6) r := by
  rw [val_main_call1_v4_apply, val_main_call1_v3_apply, val_main_call1_v2_apply, val_main_call1_v1_apply,
    val_main_call1_cst_0_apply]
  unfold val_main_call1_v0
  generalize val_main_v88 (F := Ideal) x0 x1 x3 x4 x5 x6 = a
  have ej : idx_main_call1_v3 (idx_main_call1_v4 (ix2 r k)) = ix1 r :=
    funext fun d => Fin.ext (by match d with | ⟨0, _⟩ => rfl)
  rw [ej, row_max_read, val_main_call1_cst_apply, Ideal.ofBits_def, neg_inf_word, Ideal.maximumf_def]
  unfold rowMax
  exact max_bot_left _

/-- An entry of the shifted matrix: the aggregation's entry less its row's maximum. -/
theorem shifted_apply (x0 : (⟨S100000x128, .f32⟩ : BufTy).Contents (Elt Ideal)) (x1 : (⟨S2x3200000, .i32⟩ : BufTy).Contents (Elt Ideal))
    (x3 : (⟨S32x128, .f32⟩ : BufTy).Contents (Elt Ideal)) (x4 : (⟨S32, .f32⟩ : BufTy).Contents (Elt Ideal))
    (x5 : (⟨S8x32, .f32⟩ : BufTy).Contents (Elt Ideal)) (x6 : (⟨S8, .f32⟩ : BufTy).Contents (Elt Ideal))
    (r : Fin 100000) (k : Fin 8) :
    val_main_call1_v5 (F := Ideal) x0 x1 x3 x4 x5 x6 (ix2 r k)
      = val_main_v88 (F := Ideal) x0 x1 x3 x4 x5 x6 (ix2 r k) - rowMax (val_main_v88 (F := Ideal) x0 x1 x3 x4 x5 x6) r := by
  rw [val_main_call1_v5_apply, shift_apply, Ideal.subf_def]

/-- An entry of the exponentials of the shifted matrix. -/
theorem exp_shifted_apply (x0 : (⟨S100000x128, .f32⟩ : BufTy).Contents (Elt Ideal)) (x1 : (⟨S2x3200000, .i32⟩ : BufTy).Contents (Elt Ideal))
    (x3 : (⟨S32x128, .f32⟩ : BufTy).Contents (Elt Ideal)) (x4 : (⟨S32, .f32⟩ : BufTy).Contents (Elt Ideal))
    (x5 : (⟨S8x32, .f32⟩ : BufTy).Contents (Elt Ideal)) (x6 : (⟨S8, .f32⟩ : BufTy).Contents (Elt Ideal))
    (r : Fin 100000) (k : Fin 8) :
    val_main_call1_v6 (F := Ideal) x0 x1 x3 x4 x5 x6 (ix2 r k)
      = Ideal.exp (val_main_v88 (F := Ideal) x0 x1 x3 x4 x5 x6 (ix2 r k)
          - rowMax (val_main_v88 (F := Ideal) x0 x1 x3 x4 x5 x6) r) := by
  rw [val_main_call1_v6_apply, shifted_apply, Ideal.hostUnary_exp_def]

/-- The sum along row r of those exponentials: the reference adds the eight terms to a zero. -/
theorem row_exp_sum_apply (x0 : (⟨S100000x128, .f32⟩ : BufTy).Contents (Elt Ideal)) (x1 : (⟨S2x3200000, .i32⟩ : BufTy).Contents (Elt Ideal))
    (x3 : (⟨S32x128, .f32⟩ : BufTy).Contents (Elt Ideal)) (x4 : (⟨S32, .f32⟩ : BufTy).Contents (Elt Ideal))
    (x5 : (⟨S8x32, .f32⟩ : BufTy).Contents (Elt Ideal)) (x6 : (⟨S8, .f32⟩ : BufTy).Contents (Elt Ideal))
    (r : Fin 100000) :
    val_main_call1_v7 (F := Ideal) x0 x1 x3 x4 x5 x6 (ix1 r)
      = rowExpSum (val_main_v88 (F := Ideal) x0 x1 x3 x4 x5 x6) r := by
  rw [val_main_call1_v7_apply, val_main_call1_cst_1_apply, Ideal.ofBits_def, Ideal.ofBits_zero_f32, zero_add]
  unfold rowExpSum
  refine Finset.sum_congr rfl (fun k _ => ?_)
  have ek : idx_main_call1_v7 (ix1 r) k = ix2 r k :=
    funext fun d => Fin.ext (by match d with | ⟨0, _⟩ => rfl | ⟨1, _⟩ => rfl)
  rw [ek, exp_shifted_apply]

/-- The embedding is the row-wise log-softmax of the second aggregation. -/
theorem embedding (x0 : (⟨S100000x128, .f32⟩ : BufTy).Contents (Elt Ideal)) (x1 : (⟨S2x3200000, .i32⟩ : BufTy).Contents (Elt Ideal))
    (x3 : (⟨S32x128, .f32⟩ : BufTy).Contents (Elt Ideal)) (x4 : (⟨S32, .f32⟩ : BufTy).Contents (Elt Ideal))
    (x5 : (⟨S8x32, .f32⟩ : BufTy).Contents (Elt Ideal)) (x6 : (⟨S8, .f32⟩ : BufTy).Contents (Elt Ideal)) :
    val_main_v89 (F := Ideal) x0 x1 x3 x4 x5 x6 = logSoftmax (val_main_v88 (F := Ideal) x0 x1 x3 x4 x5 x6) := by
  funext i
  obtain ⟨r, j, rfl⟩ : ∃ (r : Fin 100000) (j : Fin 8), i = ix2 r j := ⟨i 0, i 1, eq_ix2 i⟩
  rw [val_main_v89_apply, shifted_apply, val_main_call1_v10_apply, val_main_call1_v9_apply, val_main_call1_v8_apply]
  have ej : idx_main_call1_v8 (idx_main_call1_v10 (ix2 r j)) = ix1 r :=
    funext fun d => Fin.ext (by match d with | ⟨0, _⟩ => rfl)
  rw [ej, row_exp_sum_apply, Ideal.subf_def, Ideal.hostUnary_log_def]
  generalize val_main_v88 (F := Ideal) x0 x1 x3 x4 x5 x6 = a
  unfold logSoftmax
  rfl

/-! ## The head -/

/-- Joining a 100000 × 8 matrix and a 100000 × 1 column along the second axis: a column below 8 reads the matrix. -/
theorem concat_left {α : Type} (e : S100000x8.Idx → α) (f : S100000x1.Idx → α) (r : Fin 100000) (k : Fin 8) :
    concatenate S100000x9 1 [⟨S100000x8, e⟩, ⟨S100000x1, f⟩] concatenates_S100000x8_S100000x1_S100000x9_d1 (ix2 r k.castSucc)
      = e (ix2 r k) :=
  concatenate_pair_apply_left 1 e f concatenates_S100000x8_S100000x1_S100000x9_d1 (ix2 r k.castSucc) rfl (ix2 r k)
    (fun b => by match b with | ⟨0, _⟩ => rfl | ⟨1, _⟩ => rfl)

/-- … and the last column reads the extra column. -/
theorem concat_right {α : Type} (e : S100000x8.Idx → α) (f : S100000x1.Idx → α) (r : Fin 100000) :
    concatenate S100000x9 1 [⟨S100000x8, e⟩, ⟨S100000x1, f⟩] concatenates_S100000x8_S100000x1_S100000x9_d1 (ix2 r (Fin.last 8))
      = f (ix2 r 0) :=
  concatenate_pair_apply_right 1 e f concatenates_S100000x8_S100000x1_S100000x9_d1 (ix2 r (Fin.last 8)) rfl rfl (ix2 r 0)
    (fun b hb => by match b, hb with | ⟨0, _⟩, _ => rfl | ⟨1, _⟩, hb => exact absurd rfl hb)
    rfl

/-- The matrix the last layer multiplies: the log-softmax of the second aggregation joined with the extra feature. -/
theorem joined_eq (x0 : (⟨S100000x128, .f32⟩ : BufTy).Contents (Elt Ideal)) (x1 : (⟨S2x3200000, .i32⟩ : BufTy).Contents (Elt Ideal))
    (x2 : (⟨S100000x1, .f32⟩ : BufTy).Contents (Elt Ideal))
    (x3 : (⟨S32x128, .f32⟩ : BufTy).Contents (Elt Ideal)) (x4 : (⟨S32, .f32⟩ : BufTy).Contents (Elt Ideal))
    (x5 : (⟨S8x32, .f32⟩ : BufTy).Contents (Elt Ideal)) (x6 : (⟨S8, .f32⟩ : BufTy).Contents (Elt Ideal)) :
    val_main_v90 (F := Ideal) x0 x1 x2 x3 x4 x5 x6
      = concatenate S100000x9 1 [⟨S100000x8, logSoftmax (val_main_v88 (F := Ideal) x0 x1 x3 x4 x5 x6)⟩, ⟨S100000x1, x2⟩]
          concatenates_S100000x8_S100000x1_S100000x9_d1 := by
  unfold val_main_v90
  rw [embedding]

/-- The output: the head applied to the embedding and the extra feature. -/
theorem output (x0 : (⟨S100000x128, .f32⟩ : BufTy).Contents (Elt Ideal)) (x1 : (⟨S2x3200000, .i32⟩ : BufTy).Contents (Elt Ideal))
    (x2 : (⟨S100000x1, .f32⟩ : BufTy).Contents (Elt Ideal))
    (x3 : (⟨S32x128, .f32⟩ : BufTy).Contents (Elt Ideal)) (x4 : (⟨S32, .f32⟩ : BufTy).Contents (Elt Ideal))
    (x5 : (⟨S8x32, .f32⟩ : BufTy).Contents (Elt Ideal)) (x6 : (⟨S8, .f32⟩ : BufTy).Contents (Elt Ideal))
    (x7 : (⟨S1x9, .f32⟩ : BufTy).Contents (Elt Ideal)) (x8 : (⟨S1, .f32⟩ : BufTy).Contents (Elt Ideal)) :
    val_main_v96 (F := Ideal) x0 x1 x2 x3 x4 x5 x6 x7 x8
      = head (logSoftmax (val_main_v88 (F := Ideal) x0 x1 x3 x4 x5 x6)) x2 x7 x8 := by
  funext i
  obtain ⟨r, c, rfl⟩ : ∃ (r : Fin 100000) (c : Fin 1), i = ix2 r c := ⟨i 0, i 1, eq_ix2 i⟩
  obtain rfl : c = 0 := Subsingleton.elim _ _
  rw [val_main_v96_apply, val_main_v95_apply, val_main_v92_apply, val_main_v94_apply, val_main_v93_apply,
    val_main_call2_v0_apply, val_main_call2_cst_apply, joined_eq]
  generalize logSoftmax (val_main_v88 (F := Ideal) x0 x1 x3 x4 x5 x6) = e
  rw [Fin.sum_univ_castSucc]
  have el : ∀ k : Fin 9, lidx_main_v92 (ix2 r (0 : Fin 1)) k = ix2 r k := fun k =>
    funext fun d => Fin.ext (by match d with | ⟨0, _⟩ => rfl | ⟨1, _⟩ => rfl)
  have er : ∀ k : Fin 9, idx_main_v91 (ridx_main_v92 (ix2 r (0 : Fin 1)) k) = ix2 (0 : Fin 1) k := fun k =>
    funext fun d => Fin.ext (by match d with | ⟨0, _⟩ => rfl | ⟨1, _⟩ => rfl)
  have eb : idx_main_v93 (idx_main_v94 (ix2 r (0 : Fin 1))) = ix1 (0 : Fin 1) :=
    funext fun d => Fin.ext (by match d with | ⟨0, _⟩ => rfl)
  simp only [val_main_v91_apply, el, er, eb, concat_left, concat_right, Ideal.addf_def, Ideal.maximumf_def,
    Ideal.ofBits_def, Ideal.ofBits_zero_f32]
  rfl

end Cert.ReferenceIdeal.Stages

end
-- ==== Proof.RefResults.lean ====
/-
  The reference's two results as functions of its arguments: its second aggregation stage is the features matrix (its two
  dense layers and two aggregations are the named functions), its embedding the log-softmax of that, its output column
  the head of the embedding.
-/
import proofs.«152048_j65025804862040_1_alg».proof.Proof.RefStages
import proofs.«152048_j65025804862040_1_alg».proof.Proof.Features

noncomputable section

namespace Cert.ReferenceIdeal.Results

open Cert.ReferenceIdeal Cert.ReferenceIdeal.Read Cert.ReferenceIdeal.Stages Cert.Aggregation Cert.Features Cert.GcnSpec Idealize.ShloMosaic

variable (x0 : (⟨S100000x128, .f32⟩ : BufTy).Contents (Elt Ideal)) (x1 : (⟨S2x3200000, .i32⟩ : BufTy).Contents (Elt Ideal)) (x2 : (⟨S100000x1, .f32⟩ : BufTy).Contents (Elt Ideal))
  (x3 : (⟨S32x128, .f32⟩ : BufTy).Contents (Elt Ideal)) (x4 : (⟨S32, .f32⟩ : BufTy).Contents (Elt Ideal)) (x5 : (⟨S8x32, .f32⟩ : BufTy).Contents (Elt Ideal)) (x6 : (⟨S8, .f32⟩ : BufTy).Contents (Elt Ideal))
  (x7 : (⟨S1x9, .f32⟩ : BufTy).Contents (Elt Ideal)) (x8 : (⟨S1, .f32⟩ : BufTy).Contents (Elt Ideal))

/-- The reference's second aggregation stage is the features matrix. -/
theorem features_eq : val_main_v88 (F := Ideal) x0 x1 x3 x4 x5 x6 = features x0 x1 x3 x4 x5 x6 := by
  rw [ref_agg8, second_layer, ref_agg32, first_layer]
  rfl

/-- The reference's embedding is the log-softmax of the features. -/
theorem embedding_eq : val_main_v89 (F := Ideal) x0 x1 x3 x4 x5 x6 = logSoftmax (N := 100000) (W := 8) (features x0 x1 x3 x4 x5 x6) := by
  rw [embedding, features_eq]

/-- The reference's output column is the head of that embedding. -/
theorem output_eq : val_main_v96 (F := Ideal) x0 x1 x2 x3 x4 x5 x6 x7 x8
    = head (logSoftmax (N := 100000) (W := 8) (features x0 x1 x3 x4 x5 x6)) x2 x7 x8 := by
  rw [output, features_eq]

end Cert.ReferenceIdeal.Results

end
-- ==== Proof.lean ====
/-
  The certificate: a two-layer graph convolution with a log-softmax and a small head, computed by three chip kernels
  among host stretches, against its plain reference. On the extended reals the two programs are one function of the
  arguments. Both compute features = aggregate (dense (rectify (aggregate (dense x W1ᵀ b1) e)) W2ᵀ b2) e with the same
  aggregation over the edge list; the kernels' matrix products into a zero accumulator are the reference's contractions
  (rounding the operands to bf16 is the identity here), the rectifier and the row-wise log-softmax are the same
  functions row by row, and the reference's nine-term inner product of (embedding, extra feature) with the head's weights
  is the kernel's eight-term sum plus the ninth product. No law beyond commutativity and associativity of + is used, so
  the finiteness of the inputs is never needed.
  The frames of the two kernel programs are the generated ones; the reference's is its run with the results dropped;
  the idealization rewrote nothing, so `preserves` is trivial.
-/
import proofs.«152048_j65025804862040_1_alg».proof.Defs
import proofs.«152048_j65025804862040_1_alg».proof.Proof.Gen.Kernel
import proofs.«152048_j65025804862040_1_alg».proof.Proof.Gen.Kernel.Skeleton
import proofs.«152048_j65025804862040_1_alg».proof.Proof.Gen.Kernel.Launch
import proofs.«152048_j65025804862040_1_alg».proof.Proof.Gen.Kernel.Points
import proofs.«152048_j65025804862040_1_alg».proof.Proof.Gen.Kernel.Frame
import proofs.«152048_j65025804862040_1_alg».proof.Proof.Gen.KernelIdeal
import proofs.«152048_j65025804862040_1_alg».proof.Proof.Gen.KernelIdeal.Skeleton
import proofs.«152048_j65025804862040_1_alg».proof.Proof.Gen.KernelIdeal.Launch
import proofs.«152048_j65025804862040_1_alg».proof.Proof.Gen.KernelIdeal.Points
import proofs.«152048_j65025804862040_1_alg».proof.Proof.Gen.KernelIdeal.Frame
import proofs.«152048_j65025804862040_1_alg».proof.Proof.Gen.ReferenceIdeal
import proofs.«152048_j65025804862040_1_alg».proof.Proof.Gen.Pre_finite_inputs
import proofs.«152048_j65025804862040_1_alg».proof.Proof.WholeRun
import proofs.«152048_j65025804862040_1_alg».proof.Proof.Results
import proofs.«152048_j65025804862040_1_alg».proof.Proof.RefRun
import proofs.«152048_j65025804862040_1_alg».proof.Proof.RefResults
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference terminates with its arguments unchanged: its run, with the two results dropped. -/
theorem frame_ri : Cert.frame_ReferenceIdeal := fun m ρ _ =>
  (θ_run Cert.ReferenceIdeal.defs _ _).mono (fun _ h c => (h c).2.2) (Cert.ReferenceIdeal.Staged.run m ρ)

theorem preserves : Cert.preserves_Kernel_KernelIdeal := trivial

/-- From memories that agree on the arguments both programs end with the same output column and the same embedding:
    the head of, and, the log-softmax of the one features matrix of the arguments. -/
theorem algebraic : Cert.algebraic_KernelIdeal_ReferenceIdeal := by
  intro m ρ m' ρ' _ hagree
  refine ⟨_, _, (θ_run Cert.KernelIdeal.defs _ _).mono (fun r h c =>
      ⟨(h c).1.trans (Cert.KernelIdeal.Results.output m ρ c), (h c).2.1.trans (Cert.KernelIdeal.Results.embedding m ρ c), (h c).2.2⟩)
      (Cert.KernelIdeal.WholeRun.run_results m ρ), ?_⟩
  refine (θ_run Cert.ReferenceIdeal.defs _ _).mono (fun r h c => ⟨?_, ?_, (h c).2.2⟩)
    (Cert.ReferenceIdeal.Staged.run m' ρ')
  · rw [(h c).1, Cert.ReferenceIdeal.Results.output_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1, (hagree c).2.2.2.2.2.2.2.2]
  · rw [(h c).2.1, Cert.ReferenceIdeal.Results.embedding_eq, (hagree c).1, (hagree c).2.1, (hagree c).2.2.2.1,
      (hagree c).2.2.2.2.1, (hagree c).2.2.2.2.2.1, (hagree c).2.2.2.2.2.2.1]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
